-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg3)) (v1 : (c : Dev Cert.KernelIdeal.nD) → Buf (Elt Ideal) ((c.tc : Thread Cert.KernelIdeal.nD Cert.KernelIdeal.τ).loc Cert.KernelIdeal.main_arg6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_arg7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg3) = v0 c
          ∧ r.2.mem ((c.tc : Thread Cert.KernelIdeal.nD Cert.KernelIdeal.τ).loc Cert.KernelIdeal.main_arg6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg3) = v0 c
          ∧ r.2.mem ((c.tc : Thread Cert.ReferenceIdeal.nD Cert.ReferenceIdeal.τ).loc Cert.ReferenceIdeal.main_arg6) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg7) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S4000000 : Shape := ⟨1, ![4000000]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_
  bcast_S_S4000000 : S_.BroadcastsInDim S4000000 (![] : Fin 0 → Fin S4000000.rank)
  reducesTo_S4000000_S_d0 : S4000000.ReducesTo [0] S_
  reducesTo_S4000000x4_S4000000_d1 : S4000000x4.ReducesTo [1] S4000000

variable [Facts]

def fn_part2 {F : FTy → Type} [FloatOps F] (main_arg5 : FVec F S4000000x4 .f32) (main_arg7 : FVec F S4000000 .f32) (main_v33 : IVec S_ 1) : IVec S_ 1 :=
  let main_v34 : FVec F S4000000 .f32 := Host.absf main_arg7
  let main_cst_12 : FVec F S_ .f32 := constant S_ .f32 0x7F800000#32
  let main_v35 : FVec F S4000000 .f32 := broadcastInDim S4000000 ![] bcast_S_S4000000 main_cst_12
  let main_v36 : IVec S4000000 1 := cmpf .olt main_v34 main_v35
  let main_c_13 : IVec S_ 1 := constantI S_ 1 1#1
  let main_v37 : IVec S_ 1 := (fun x v => Host.reduce IntOp.andi x v reducesTo_S4000000_S_d0 h_S_) main_v36 main_c_13
  let main_v38 : IVec S_ 1 := andi main_v33 main_v37
  let main_v39 : FVec F S4000000x4 .f32 := mulf main_arg5 main_arg5
  let main_cst_14 : FVec F S_ .f32 := constant S_ .f32 0x00000000#32
  let main_v40 : FVec F S4000000 .f32 := (fun x v => Host.reduceAdd x v reducesTo_S4000000x4_S4000000_d1 h_S_) main_v39 main_cst_14
  let main_cst_15 : FVec F S_ .f32 := constant S_ .f32 0x00000000#32
  let main_v41 : FVec F S4000000 .f32 := broadcastInDim S4000000 ![] bcast_S_S4000000 main_cst_15
  let main_v42 : IVec S4000000 1 := cmpf .ogt main_v40 main_v41
  let main_c_16 : IVec S_ 1 := constantI S_ 1 1#1
  let main_v43 : IVec S_ 1 := (fun x v => Host.reduce IntOp.andi x v reducesTo_S4000000_S_d0 h_S_) main_v42 main_c_16
  let main_v44 : IVec S_ 1 := andi main_v38 main_v43
  main_v44

def fn_part1 {F : FTy → Type} [FloatOps F] (main_arg4 : FVec F S4000000x3 .f32) (main_arg5 : FVec F S4000000x4 .f32) (main_arg6 : FVec F S4000000x3 .f32) (main_arg7 : FVec F S4000000 .f32) (main_v13 : IVec S_ 1) (main_v16 : IVec S4000000x3 1) : IVec S_ 1 :=
  let main_c_5 : IVec S_ 1 := constantI S_ 1 1#1
  let main_v17 : IVec S_ 1 := (fun x v => Host.reduce IntOp.andi x v reducesTo_S4000000x3_S_d0_1 h_S_) main_v16 main_c_5
  let main_v18 : IVec S_ 1 := andi main_v13 main_v17
  let main_v19 : FVec F S4000000x3 .f32 := Host.absf main_arg4
  let main_cst_6 : FVec F S_ .f32 := constant S_ .f32 0x7F800000#32
  let main_v20 : FVec F S4000000x3 .f32 := broadcastInDim S4000000x3 ![] bcast_S_S4000000x3 main_cst_6
  let main_v21 : IVec S4000000x3 1 := cmpf .olt main_v19 main_v20
  let main_c_7 : IVec S_ 1 := constantI S_ 1 1#1
  let main_v22 : IVec S_ 1 := (fun x v => Host.reduce IntOp.andi x v reducesTo_S4000000x3_S_d0_1 h_S_) main_v21 main_c_7
  let main_v23 : IVec S_ 1 := andi main_v18 main_v22
  let main_v24 : FVec F S4000000x4 .f32 := Host.absf main_arg5
  let main_cst_8 : FVec F S_ .f32 := constant S_ .f32 0x7F800000#32
  let main_v25 : FVec F S4000000x4 .f32 := broadcastInDim S4000000x4 ![] bcast_S_S4000000x4 main_cst_8
  let main_v26 : IVec S4000000x4 1 := cmpf .olt main_v24 main_v25
  let main_c_9 : IVec S_ 1 := constantI S_ 1 1#1
  let main_v27 : IVec S_ 1 := (fun x v => Host.reduce IntOp.andi x v reducesTo_S4000000x4_S_d0_1 h_S_) main_v26 main_c_9
  let main_v28 : IVec S_ 1 := andi main_v23 main_v27
  let main_v29 : FVec F S4000000x3 .f32 := Host.absf main_arg6
  let main_cst_10 : FVec F S_ .f32 := constant S_ .f32 0x7F800000#32
  let main_v30 : FVec F S4000000x3 .f32 := broadcastInDim S4000000x3 ![] bcast_S_S4000000x3 main_cst_10
  let main_v31 : IVec S4000000x3 1 := cmpf .olt main_v29 main_v30
  let main_c_11 : IVec S_ 1 := constantI S_ 1 1#1
  let main_v32 : IVec S_ 1 := (fun x v => Host.reduce IntOp.andi x v reducesTo_S4000000x3_S_d0_1 h_S_) main_v31 main_c_11
  let main_v33 : IVec S_ 1 := andi main_v28 main_v32
  fn_part2 (F := F) main_arg5 main_arg7 main_v33

def fn {F : FTy → Type} [FloatOps F] (main_arg0 : FVec F S4000000x3 .f32) (main_arg1 : FVec F S4000000x3 .f32) (main_arg2 : FVec F S4000000x3 .f32) (main_arg3 : FVec F S4000000x3 .f32) (main_arg4 : FVec F S4000000x3 .f32) (main_arg5 : FVec F S4000000x4 .f32) (main_arg6 : FVec F S4000000x3 .f32) (main_arg7 : FVec F S4000000 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x3 .f32 := Host.absf main_arg2
  let main_cst_2 : FVec F S_ .f32 := constant S_ .f32 0x7F800000#32
  let main_v10 : FVec F S4000000x3 .f32 := broadcastInDim S4000000x3 ![] bcast_S_S4000000x3 main_cst_2
  let main_v11 : IVec S4000000x3 1 := cmpf .olt main_v9 main_v10
  let main_c_3 : IVec S_ 1 := constantI S_ 1 1#1
  let main_v12 : IVec S_ 1 := (fun x v => Host.reduce IntOp.andi x v reducesTo_S4000000x3_S_d0_1 h_S_) main_v11 main_c_3
  let main_v13 : IVec S_ 1 := andi main_v8 main_v12
  let main_v14 : FVec F S4000000x3 .f32 := Host.absf main_arg3
  let main_cst_4 : FVec F S_ .f32 := constant S_ .f32 0x7F800000#32
  let main_v15 : FVec F S4000000x3 .f32 := broadcastInDim S4000000x3 ![] bcast_S_S4000000x3 main_cst_4
  let main_v16 : IVec S4000000x3 1 := cmpf .olt main_v14 main_v15
  fn_part1 (F := F) main_arg4 main_arg5 main_arg6 main_arg7 main_v13 main_v16
-- ==== Kernel.lean ====
abbrev S4000000x3 : Shape := ⟨2, ![4000000, 3]⟩
abbrev S4000000x4 : Shape := ⟨2, ![4000000, 4]⟩
abbrev S4000000 : Shape := ⟨1, ![4000000]⟩
abbrev S4x4000000 : Shape := ⟨2, ![4, 4000000]⟩
abbrev S3x4000000 : Shape := ⟨2, ![3, 4000000]⟩
abbrev S_ : Shape := ⟨0, ![]⟩
abbrev S4x4194304 : Shape := ⟨2, ![4, 4194304]⟩
abbrev S3x4194304 : Shape := ⟨2, ![3, 4194304]⟩
abbrev S9x4194304 : Shape := ⟨2, ![9, 4194304]⟩
abbrev S4x262144 : Shape := ⟨2, ![4, 262144]⟩
abbrev S3x262144 : Shape := ⟨2, ![3, 262144]⟩
abbrev S9x262144 : Shape := ⟨2, ![9, 262144]⟩
abbrev S1x262144 : Shape := ⟨2, ![1, 262144]⟩
abbrev S262144 : Shape := ⟨1, ![262144]⟩
abbrev S9x4000000 : Shape := ⟨2, ![9, 4000000]⟩
abbrev S4000000x9 : Shape := ⟨2, ![4000000, 9]⟩
abbrev S4000000x3x3 : Shape := ⟨3, ![4000000, 3, 3]⟩

abbrev nBuf : Space → Nat
  | .hbm => 20
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x3, .f32⟩
  | .hbm, ⟨2, _⟩ => ⟨S4000000x3, .f32⟩
  | .hbm, ⟨3, _⟩ => ⟨S4000000x3, .f32⟩
  | .hbm, ⟨4, _⟩ => ⟨S4000000x3, .f32⟩
  | .hbm, ⟨5, _⟩ => ⟨S4000000x4, .f32⟩
  | .hbm, ⟨6, _⟩ => ⟨S4000000x3, .f32⟩
  | .hbm, ⟨7, _⟩ => ⟨S4000000, .f32⟩
  | .hbm, ⟨8, _⟩ => ⟨S4x4000000, .f32⟩
  | .hbm, ⟨9, _⟩ => ⟨S3x4000000, .f32⟩
  | .hbm, ⟨10, _⟩ => ⟨S_, .i32⟩
  | .hbm, ⟨11, _⟩ => ⟨S_, .f32⟩
  | .hbm, ⟨12, _⟩ => ⟨S4x4194304, .f32⟩
  | .hbm, ⟨13, _⟩ => ⟨S_, .i32⟩
  | .hbm, ⟨14, _⟩ => ⟨S_, .f32⟩
  | .hbm, ⟨15, _⟩ => ⟨S3x4194304, .f32⟩
  | .hbm, ⟨16, _⟩ => ⟨S9x4194304, .f32⟩
  | .hbm, ⟨17, _⟩ => ⟨S9x4000000, .f32⟩
  | .hbm, ⟨18, _⟩ => ⟨S4000000x9, .f32⟩
  | .hbm, ⟨19, _⟩ => ⟨S4000000x3x3, .f32⟩
  | .local _ .vmem, ⟨0, _⟩ => ⟨S4x262144, .f32⟩
  | .local _ .vmem, ⟨1, _⟩ => ⟨S4x262144, .f32⟩
  | .local _ .vmem, ⟨2, _⟩ => ⟨S3x262144, .f32⟩
  | .local _ .vmem, ⟨3, _⟩ => ⟨S3x262144, .f32⟩
  | .local _ .vmem, ⟨4, _⟩ => ⟨S9x262144, .f32⟩
  | .local _ .vmem, ⟨5, _⟩ => ⟨S9x262144, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4000000x4_S4x4000000_1_0 : S4000000x4.Transposes [1, 0] S4x4000000
  transposes_S4000000x3_S3x4000000_1_0 : S4000000x3.Transposes [1, 0] S3x4000000
  pads_S4x4000000_S4x4194304_000_01943040 : S4x4000000.Pads (![0, 0] : Fin 2 → Nat) ![0, 194304] ![0, 0] S4x4194304
  h_S_ : 0 < S_.numel
  pads_S3x4000000_S3x4194304_000_01943040 : S3x4000000.Pads (![0, 0] : Fin 2 → Nat) ![0, 194304] ![0, 0] S3x4194304
  inb_S4x262144_S4x262144_0_0 : ∀ a, (![0, 0] : Fin 2 → Nat) a + S4x262144.size a ≤ S4x262144.size a
  h_S4x262144 : 0 < S4x262144.numel
  shapeCasts_S4x262144_S4x262144 : S4x262144.ShapeCasts S4x262144
  slices_S4x262144_o0_0_S1x262144 : S4x262144.Slices ![0, 0] S1x262144
  shapeCasts_S1x262144_S262144 : S1x262144.ShapeCasts S262144
  slices_S4x262144_o1_0_S1x262144 : S4x262144.Slices ![1, 0] S1x262144
  slices_S4x262144_o2_0_S1x262144 : S4x262144.Slices ![2, 0] S1x262144
  slices_S4x262144_o3_0_S1x262144 : S4x262144.Slices ![3, 0] S1x262144
  inb_S3x262144_S3x262144_0_0 : ∀ a, (![0, 0] : Fin 2 → Nat) a + S3x262144.size a ≤ S3x262144.size a
  h_S3x262144 : 0 < S3x262144.numel
  shapeCasts_S3x262144_S3x262144 : S3x262144.ShapeCasts S3x262144
  slices_S3x262144_o0_0_S1x262144 : S3x262144.Slices ![0, 0] S1x262144
  slices_S3x262144_o1_0_S1x262144 : S3x262144.Slices ![1, 0] S1x262144
  slices_S3x262144_o2_0_S1x262144 : S3x262144.Slices ![2, 0] S1x262144
  inb_S9x262144_S1x262144_0_0 : ∀ a, (![0, 0] : Fin 2 → Nat) a + S1x262144.size a ≤ S9x262144.size a
  h_S1x262144 : 0 < S1x262144.numel
  shapeCasts_S262144_S1x262144 : S262144.ShapeCasts S1x262144
  inb_S9x262144_S1x262144_1_0 : ∀ a, (![1, 0] : Fin 2 → Nat) a + S1x262144.size a ≤ S9x262144.size a
  inb_S9x262144_S1x262144_2_0 : ∀ a, (![2, 0] : Fin 2 → Nat) a + S1x262144.size a ≤ S9x262144.size a
  inb_S9x262144_S1x262144_3_0 : ∀ a, (![3, 0] : Fin 2 → Nat) a + S1x262144.size a ≤ S9x262144.size a
  inb_S9x262144_S1x262144_4_0 : ∀ a, (![4, 0] : Fin 2 → Nat) a + S1x262144.size a ≤ S9x262144.size a
  inb_S9x262144_S1x262144_5_0 : ∀ a, (![5, 0] : Fin 2 → Nat) a + S1x262144.size a ≤ S9x262144.size a
  inb_S9x262144_S1x262144_6_0 : ∀ a, (![6, 0] : Fin 2 → Nat) a + S1x262144.size a ≤ S9x262144.size a
  inb_S9x262144_S1x262144_7_0 : ∀ a, (![7, 0] : Fin 2 → Nat) a + S1x262144.size a ≤ S9x262144.size a
  inb_S9x262144_S1x262144_8_0 : ∀ a, (![8, 0] : Fin 2 → Nat) a + S1x262144.size a ≤ S9x262144.size a
  slices_S9x4194304_S9x4000000_0_0 : S9x4194304.Slices ![0, 0] S9x4000000
  transposes_S9x4000000_S4000000x9_1_0 : S9x4000000.Transposes [1, 0] S4000000x9
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x262144.size a ≤ S4x4194304.size a
  hwx0_0 : ∀ i : grid0.Coords, EltTy.bits .f32 = 32 ∨ (Rect.block (s := S4x4194304) S4x262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x262144.size a ≤ S3x4194304.size a
  hwx0_1 : ∀ i : grid0.Coords, EltTy.bits .f32 = 32 ∨ (Rect.block (s := S3x4194304) S3x262144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x262144.size a ≤ S9x4194304.size a
  hwx0_2 : ∀ i : grid0.Coords, EltTy.bits .f32 = 32 ∨ (Rect.block (s := S9x4194304) S9x262144.size (cc0_transform_2 i) (hinb0_2 i)).WholeWords (EltTy.packing .f32)

variable [Facts₀]

abbrev win0_0 : Pipeline.Window sig grid0 :=
  Pipeline.Window.ofSpec (Memref.whole main_v2) S4x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S3x262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S9x262144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S4000000 : Shape := ⟨1, ![4000000]⟩
abbrev S_ : Shape := ⟨0, ![]⟩
abbrev S4000000x1 : Shape := ⟨2, ![4000000, 1]⟩
abbrev S4000000x1x3 : Shape := ⟨3, ![4000000, 1, 3]⟩
abbrev S4000000x3x3 : Shape := ⟨3, ![4000000, 3, 3]⟩

abbrev nBuf : Space → Nat
  | .hbm => 133
  | .vmem => 0
  | .smem => 0
  | _ => 0

abbrev hbmTy0_0 (i : Nat) : BufTy := match i % 128 with
  | 0 => ⟨S4000000x3, .f32⟩
  | 1 => ⟨S4000000x3, .f32⟩
  | 2 => ⟨S4000000x3, .f32⟩
  | 3 => ⟨S4000000x3, .f32⟩
  | 4 => ⟨S4000000x3, .f32⟩
  | 5 => ⟨S4000000x4, .f32⟩
  | 6 => ⟨S4000000x3, .f32⟩
  | 7 => ⟨S4000000, .f32⟩
  | 8 => ⟨S4000000x4, .f32⟩
  | 9 => ⟨S_, .f32⟩
  | 10 => ⟨S4000000, .f32⟩
  | 11 => ⟨S4000000x1, .f32⟩
  | 12 => ⟨S4000000x1, .f32⟩
  | 13 => ⟨S4000000x4, .f32⟩
  | 14 => ⟨S4000000x4, .f32⟩
  | 15 => ⟨S4000000x1, .f32⟩
  | 16 => ⟨S4000000, .f32⟩
  | 17 => ⟨S4000000x1, .f32⟩
  | 18 => ⟨S4000000, .f32⟩
  | 19 => ⟨S4000000x1, .f32⟩
  | 20 => ⟨S4000000, .f32⟩
  | 21 => ⟨S4000000x1, .f32⟩
  | 22 => ⟨S4000000, .f32⟩
  | 23 => ⟨S_, .f32⟩
  | 24 => ⟨S4000000, .f32⟩
  | 25 => ⟨S4000000, .f32⟩
  | 26 => ⟨S4000000, .f32⟩
  | 27 => ⟨S_, .f32⟩
  | 28 => ⟨S4000000, .f32⟩
  | 29 => ⟨S4000000, .f32⟩
  | 30 => ⟨S_, .f32⟩
  | 31 => ⟨S4000000, .f32⟩
  | 32 => ⟨S4000000, .f32⟩
  | 33 => ⟨S4000000, .f32⟩
  | 34 => ⟨S4000000, .f32⟩
  | 35 => ⟨S_, .f32⟩
  | 36 => ⟨S4000000, .f32⟩
  | 37 => ⟨S4000000, .f32⟩
  | 38 => ⟨S4000000, .f32⟩
  | 39 => ⟨S_, .f32⟩
  | 40 => ⟨S4000000, .f32⟩
  | 41 => ⟨S4000000, .f32⟩
  | 42 => ⟨S4000000, .f32⟩
  | 43 => ⟨S4000000, .f32⟩
  | 44 => ⟨S_, .f32⟩
  | 45 => ⟨S4000000, .f32⟩
  | 46 => ⟨S4000000, .f32⟩
  | 47 => ⟨S4000000, .f32⟩
  | 48 => ⟨S_, .f32⟩
  | 49 => ⟨S4000000, .f32⟩
  | 50 => ⟨S4000000, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S4000000, .f32⟩
  | 57 => ⟨S_, .f32⟩
  | 58 => ⟨S4000000, .f32⟩
  | 59 => ⟨S4000000, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S4000000, .f32⟩
  | 66 => ⟨S_, .f32⟩
  | 67 => ⟨S4000000, .f32⟩
  | 68 => ⟨S4000000, .f32⟩
  | 69 => ⟨S_, .f32⟩
  | 70 => ⟨S4000000, .f32⟩
  | 71 => ⟨S4000000, .f32⟩
  | 72 => ⟨S4000000, .f32⟩
  | 73 => ⟨S4000000, .f32⟩
  | 74 => ⟨S_, .f32⟩
  | 75 => ⟨S4000000, .f32⟩
  | 76 => ⟨S4000000, .f32⟩
  | 77 => ⟨S4000000, .f32⟩
  | 78 => ⟨S_, .f32⟩
  | 79 => ⟨S4000000, .f32⟩
  | 80 => ⟨S4000000, .f32⟩
  | 81 => ⟨S4000000, .f32⟩
  | 82 => ⟨S4000000, .f32⟩
  | 83 => ⟨S_, .f32⟩
  | 84 => ⟨S4000000, .f32⟩
  | 85 => ⟨S4000000, .f32⟩
  | 86 => ⟨S4000000, .f32⟩
  | 87 => ⟨S_, .f32⟩
  | 88 => ⟨S4000000, .f32⟩
  | 89 => ⟨S4000000, .f32⟩
  | 90 => ⟨S4000000, .f32⟩
  | 91 => ⟨S4000000, .f32⟩
  | 92 => ⟨S_, .f32⟩
  | 93 => ⟨S4000000, .f32⟩
  | 94 => ⟨S4000000, .f32⟩
  | 95 => ⟨S4000000, .f32⟩
  | 96 => ⟨S_, .f32⟩
  | 97 => ⟨S4000000, .f32⟩
  | 98 => ⟨S4000000, .f32⟩
  | 99 => ⟨S4000000, .f32⟩
  | 100 => ⟨S4000000, .f32⟩
  | 101 => ⟨S_, .f32⟩
  | 102 => ⟨S4000000, .f32⟩
  | 103 => ⟨S4000000, .f32⟩
  | 104 => ⟨S4000000, .f32⟩
  | 105 => ⟨S_, .f32⟩
  | 106 => ⟨S4000000, .f32⟩
  | 107 => ⟨S4000000, .f32⟩
  | 108 => ⟨S_, .f32⟩
  | 109 => ⟨S4000000, .f32⟩
  | 110 => ⟨S4000000, .f32⟩
  | 111 => ⟨S4000000, .f32⟩
  | 112 => ⟨S4000000, .f32⟩
  | 113 => ⟨S4000000x1, .f32⟩
  | 114 => ⟨S4000000x1, .f32⟩
  | 115 => ⟨S4000000x1, .f32⟩
  | 116 => ⟨S4000000x3, .f32⟩
  | 117 => ⟨S4000000x1, .f32⟩
  | 118 => ⟨S4000000x1, .f32⟩
  | 119 => ⟨S4000000x1, .f32⟩
  | 120 => ⟨S4000000x3, .f32⟩
  | 121 => ⟨S4000000x1, .f32⟩
  | 122 => ⟨S4000000x1, .f32⟩
  | 123 => ⟨S4000000x1, .f32⟩
  | 124 => ⟨S4000000x3, .f32⟩
  | 125 => ⟨S4000000x1x3, .f32⟩
  | 126 => ⟨S4000000x1x3, .f32⟩
  | 127 => ⟨S4000000x1x3, .f32⟩
  | _ => ⟨S4000000x3, .f32⟩

abbrev hbmTy0_1 (i : Nat) : BufTy := match i % 128 with
  | 0 => ⟨S4000000x3x3, .f32⟩
  | 1 => ⟨S4000000x1x3, .f32⟩
  | 2 => ⟨S4000000x3x3, .f32⟩
  | 3 => ⟨S4000000x3x3, .f32⟩
  | 4 => ⟨S4000000x3x3, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_14 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_16 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_18 : Ref sig .tc := ⟨.hbm, 105, rfl⟩
abbrev main_v74 : Ref sig .tc := ⟨.hbm, 106, rfl⟩
abbrev main_v75 : Ref sig .tc := ⟨.hbm, 107, rfl⟩
abbrev main_cst_19 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Spec.lean ====
/-
  The covariance of one splat, as a function of its quaternion and its three scales, on the extended reals.

  A quaternion q = (q0, q1, q2, q3) is first scaled to unit length, u = q / |q|; the unit quaternion
  (w, x, y, z) = u gives the rotation matrix R(u); its columns are scaled, M = R(u) · diag(s); and the covariance is
  M · Mᵀ, entry (i, j) = M(i,0)·M(j,0) + M(i,1)·M(j,1) + M(i,2)·M(j,2).

  The two programs differ only in how they scale q: one multiplies by the reciprocal square root of
  q0² + q1² + q2² + q3², the other divides by its square root. For a POSITIVE sum of squares (the infinite sum ⊤
  included) the two agree on every extended real; at a zero quaternion they do not (0 · ⊤ = 0 against 0 / 0), which
  is why positivity of the sum of squares is assumed of every quaternion.
-/
import Idealize.ShloMosaic.PureOps.Ideal
import Idealize.ShloMosaic.PureOps.Ideal.Laws
import Idealize.ShloMosaic.Lib.ValueIdx

noncomputable section

namespace Cert.Cov

open Idealize.ShloMosaic

/-- The literals 2 and 1 both programs carry, as the f32 patterns they are printed with (never evaluated: the
    same word stands on both sides). -/
abbrev two : EReal := Ideal.ofBits .f32 0x40000000#32
abbrev one : EReal := Ideal.ofBits .f32 0x3F800000#32

/-- The rotation matrix of the quaternion (w, x, y, z) = (u 0, u 1, u 2, u 3), each entry with the grouping
    ((2·a)·b) both programs compute it with. -/
def rot (u : Fin 4 → EReal) : Fin 3 → Fin 3 → EReal :=
  ![![one - two * u 2 * u 2 - two * u 3 * u 3, two * u 1 * u 2 - two * u 0 * u 3, two * u 1 * u 3 + two * u 0 * u 2],
    ![two * u 1 * u 2 + two * u 0 * u 3, one - two * u 1 * u 1 - two * u 3 * u 3, two * u 2 * u 3 - two * u 0 * u 1],
    ![two * u 1 * u 3 - two * u 0 * u 2, two * u 2 * u 3 + two * u 0 * u 1, one - two * u 1 * u 1 - two * u 2 * u 2]]

/-- The rotation with its columns scaled: M(i,k) = R(i,k) · s(k). -/
def scaled (u : Fin 4 → EReal) (s : Fin 3 → EReal) (i k : Fin 3) : EReal := rot u i k * s k

/-- Entry (i, j) of M · Mᵀ for a 3×3 matrix M, summed left to right. -/
def gram (M : Fin 3 → Fin 3 → EReal) (i j : Fin 3) : EReal := M i 0 * M j 0 + M i 1 * M j 1 + M i 2 * M j 2

/-- M · Mᵀ is symmetric (products commute on the extended reals). -/
theorem gram_symm (M : Fin 3 → Fin 3 → EReal) (i j : Fin 3) : gram M i j = gram M j i := by
  unfold gram; rw [mul_comm (M i 0), mul_comm (M i 1), mul_comm (M i 2)]

/-- The same entry as a sum over the contracted index. -/
theorem sum_eq_gram (M : Fin 3 → Fin 3 → EReal) (i j : Fin 3) : ∑ k : Fin 3, M i k * M j k = gram M i j := by
  rw [Fin.sum_univ_three]; rfl

/-- The squared length of a quaternion, summed left to right. -/
def sumsq (q : Fin 4 → EReal) : EReal := q 0 * q 0 + q 1 * q 1 + q 2 * q 2 + q 3 * q 3

/-- The same from a zero word plus the sum over the four components. -/
theorem zero_add_sum_eq_sumsq (q : Fin 4 → EReal) :
    Ideal.ofBits .f32 0x00000000#32 + ∑ k : Fin 4, q k * q k = sumsq q := by
  rw [Ideal.ofBits_zero_f32, zero_add, Fin.sum_univ_four]; rfl

/-- Scaling to unit length by the reciprocal square root of the squared length. -/
def unitMul (q : Fin 4 → EReal) : Fin 4 → EReal := fun k => q k * Ideal.rsqrt (sumsq q)

/-- Scaling to unit length by dividing by the length. -/
def unitDiv (q : Fin 4 → EReal) : Fin 4 → EReal := fun k => Ideal.div (q k) (Ideal.sqrt (sumsq q))

/-- For a positive S (a positive real, or +∞) multiplying by 1/√S is dividing by √S, for every extended real x:
    at a real S > 0 both are x · (√S)⁻¹, and at S = +∞ both are x · 0. -/
theorem mul_rsqrt_eq_div_sqrt (x S : EReal) (h : 0 < S) : x * Ideal.rsqrt S = Ideal.div x (Ideal.sqrt S) := by
  induction S using EReal.rec with
  | bot => exact absurd h (not_lt.2 bot_le)
  | top =>
    rw [Ideal.rsqrt_top, Ideal.sqrt_top, Ideal.div, if_neg (by decide : ¬((⊤ : EReal) = 0)), EReal.inv_top]
  | coe s =>
    have hs : 0 < s := by exact_mod_cast h
    have hq : Real.sqrt s ≠ 0 := (Real.sqrt_pos.2 hs).ne'
    rw [Ideal.rsqrt_coe, Ideal.sqrt_coe, if_neg (not_lt.2 hs.le), if_neg hs.ne', if_neg (not_lt.2 hs.le),
      Ideal.div_coe hq, one_div]

/-- The two scalings agree on a quaternion whose squared length is positive. -/
theorem unitMul_eq_unitDiv (q : Fin 4 → EReal) (h : 0 < sumsq q) : unitMul q = unitDiv q :=
  funext fun k => mul_rsqrt_eq_div_sqrt (q k) (sumsq q) h

/-- The covariance of a splat with quaternion q and scales s, the quaternion scaled by the reciprocal square root. -/
def cov (q : Fin 4 → EReal) (s : Fin 3 → EReal) (i j : Fin 3) : EReal := gram (scaled (unitMul q) s) i j

/-- The same with the quaternion divided by its length, under positivity of the squared length. -/
theorem gram_unitDiv_eq_cov (q : Fin 4 → EReal) (s : Fin 3 → EReal) (h : 0 < sumsq q) (i j : Fin 3) :
    gram (scaled (unitDiv q) s) i j = cov q s i j := by
  unfold cov; rw [unitMul_eq_unitDiv q h]

/-- The whole result: entry (n, i, j) is the covariance entry (i, j) of row n of the quaternion array and row n of the
    scale array. -/
def covArr (quats : (⟨2, ![4000000, 4]⟩ : Shape).Idx → EReal) (scales : (⟨2, ![4000000, 3]⟩ : Shape).Idx → EReal) :
    (⟨3, ![4000000, 3, 3]⟩ : Shape).Idx → EReal := fun i =>
  cov (fun k => quats (ValueIdx.ix2 (i 0) k)) (fun k => scales (ValueIdx.ix2 (i 0) k)) (i 1) (i 2)

/-- The covariance is symmetric. -/
theorem cov_symm (q : Fin 4 → EReal) (s : Fin 3 → EReal) (i j : Fin 3) : cov q s i j = cov q s j i :=
  gram_symm _ i j

end Cert.Cov

end
-- ==== Proof.KernelPay.lean ====
/-
  What the kernel body leaves in its output block, read at an index.

  The body works on one block of columns: the quaternion block is [4, 262144] (one quaternion per column), the scale
  block [3, 262144], and the output block [9, 262144]. Every operation between the row slices of the inputs and the
  nine row stores is pointwise along the columns, so the entry at row r and column p depends only on column p of the
  two input blocks: it is the covariance entry (r / 3, r % 3) of that column's quaternion and scales. The three rows
  below the diagonal (3, 6, 7) store the value computed for the mirrored entry; the covariance is symmetric.
-/
import proofs.«157644_j47562467836190_2_alg».proof.Proof.Gen.KernelIdeal.Frame
import proofs.«157644_j47562467836190_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Pay

open Idealize.ShloMosaic Idealize.ShloMosaic.ValueIdx Cert.KernelIdeal Cert.KernelIdeal.Gen Cert.Cov

/-- Column p of a quaternion block, and of a scale block. -/
def qcol (x0 : Vec Ideal S4x262144 .f32) (p : Fin 262144) : Fin 4 → EReal := fun k => x0 (ix2 k p)
def scol (x1 : Vec Ideal S3x262144 .f32) (p : Fin 262144) : Fin 3 → EReal := fun k => x1 (ix2 k p)

/-! ## The row slices -/

/-- Row r of a [4, n] block as a vector, at p, is the block at (r, p). -/
theorem sliceRow4 (v : FVec Ideal S4x262144 .f32) (r : Fin 4) (h) (h') (p : Fin 262144) :
    shapeCast S262144 (extractStridedSlice S1x262144 ![r.val, 0] v h) h' (ix1 p) = v (ix2 r p) := by
  rw [shapeCast_1a_a_apply]
  exact slice2_axis0_apply r.val v h (0 : Fin 1) p r (by simp)

/-- Row r of a [3, n] block as a vector, at p, is the block at (r, p). -/
theorem sliceRow3 (v : FVec Ideal S3x262144 .f32) (r : Fin 3) (h) (h') (p : Fin 262144) :
    shapeCast S262144 (extractStridedSlice S1x262144 ![r.val, 0] v h) h' (ix1 p) = v (ix2 r p) := by
  rw [shapeCast_1a_a_apply]
  exact slice2_axis0_apply r.val v h (0 : Fin 1) p r (by simp)

theorem pay8 (x0 : Vec Ideal S4x262144 .f32) : k0_pay8 x0 = x0 := shapeCast_self _ _
theorem pay9 (x0 : Vec Ideal S4x262144 .f32) (p : Fin 262144) : k0_pay9 x0 (ix1 p) = x0 (ix2 0 p) := by
  unfold k0_pay9; rw [pay8]; exact sliceRow4 x0 0 _ _ p
theorem pay10 (x0 : Vec Ideal S4x262144 .f32) (p : Fin 262144) : k0_pay10 x0 (ix1 p) = x0 (ix2 1 p) := by
  unfold k0_pay10; rw [pay8]; exact sliceRow4 x0 1 _ _ p
theorem pay11 (x0 : Vec Ideal S4x262144 .f32) (p : Fin 262144) : k0_pay11 x0 (ix1 p) = x0 (ix2 2 p) := by
  unfold k0_pay11; rw [pay8]; exact sliceRow4 x0 2 _ _ p
theorem pay12 (x0 : Vec Ideal S4x262144 .f32) (p : Fin 262144) : k0_pay12 x0 (ix1 p) = x0 (ix2 3 p) := by
  unfold k0_pay12; rw [pay8]; exact sliceRow4 x0 3 _ _ p

theorem pay28 (x1 : Vec Ideal S3x262144 .f32) : k0_pay28 x1 = x1 := shapeCast_self _ _
/-- The first scale row, kept as a [1, n] slice and cast to a vector where it is used. -/
theorem pay30 (x1 : Vec Ideal S3x262144 .f32) (p : Fin 262144) : k0_pay30 (k0_pay29 x1) (ix1 p) = x1 (ix2 0 p) := by
  unfold k0_pay30 k0_pay29; rw [pay28]; exact sliceRow3 x1 0 _ _ p
theorem pay31 (x1 : Vec Ideal S3x262144 .f32) (p : Fin 262144) : k0_pay31 (k0_pay28 x1) (ix1 p) = x1 (ix2 1 p) := by
  unfold k0_pay31; rw [pay28]; exact sliceRow3 x1 1 _ _ p
theorem pay32 (x1 : Vec Ideal S3x262144 .f32) (p : Fin 262144) : k0_pay32 (k0_pay28 x1) (ix1 p) = x1 (ix2 2 p) := by
  unfold k0_pay32; rw [pay28]; exact sliceRow3 x1 2 _ _ p

/-! ## The unit quaternion of a column -/

theorem pay13 (x0 : Vec Ideal S4x262144 .f32) (p : Fin 262144) :
    k0_pay13 x0 (ix1 p) = Ideal.rsqrt (sumsq (qcol x0 p)) := by
  show Ideal.rsqrt (k0_pay9 x0 (ix1 p) * k0_pay9 x0 (ix1 p) + k0_pay10 x0 (ix1 p) * k0_pay10 x0 (ix1 p)
    + k0_pay11 x0 (ix1 p) * k0_pay11 x0 (ix1 p) + k0_pay12 x0 (ix1 p) * k0_pay12 x0 (ix1 p)) = _
  rw [pay9, pay10, pay11, pay12]; rfl

theorem pay14 (x0 : Vec Ideal S4x262144 .f32) (p : Fin 262144) : k0_pay14 x0 (ix1 p) = unitMul (qcol x0 p) 0 := by
  show k0_pay9 x0 (ix1 p) * k0_pay13 x0 (ix1 p) = _; rw [pay9, pay13]; rfl
theorem pay15 (x0 : Vec Ideal S4x262144 .f32) (p : Fin 262144) : k0_pay15 x0 (ix1 p) = unitMul (qcol x0 p) 1 := by
  show k0_pay10 x0 (ix1 p) * k0_pay13 x0 (ix1 p) = _; rw [pay10, pay13]; rfl
theorem pay16 (x0 : Vec Ideal S4x262144 .f32) (p : Fin 262144) : k0_pay16 x0 (ix1 p) = unitMul (qcol x0 p) 2 := by
  show k0_pay11 x0 (ix1 p) * k0_pay13 x0 (ix1 p) = _; rw [pay11, pay13]; rfl
theorem pay17 (x0 : Vec Ideal S4x262144 .f32) (p : Fin 262144) : k0_pay17 x0 (ix1 p) = unitMul (qcol x0 p) 3 := by
  show k0_pay12 x0 (ix1 p) * k0_pay13 x0 (ix1 p) = _; rw [pay12, pay13]; rfl

/-! ## The nine rotation entries of a column -/

section Rot
variable (x0 : Vec Ideal S4x262144 .f32) (p : Fin 262144)

theorem r00 : k0_pay18 x0 (ix1 p) = rot (unitMul (qcol x0 p)) 0 0 := by
  show one - two * k0_pay16 x0 (ix1 p) * k0_pay16 x0 (ix1 p) - two * k0_pay17 x0 (ix1 p) * k0_pay17 x0 (ix1 p) = _
  rw [pay16, pay17]; rfl
theorem r01 : k0_pay19 x0 (ix1 p) = rot (unitMul (qcol x0 p)) 0 1 := by
  show two * k0_pay15 x0 (ix1 p) * k0_pay16 x0 (ix1 p) - two * k0_pay14 x0 (ix1 p) * k0_pay17 x0 (ix1 p) = _
  rw [pay14, pay15, pay16, pay17]; rfl
theorem r02 : k0_pay20 x0 (ix1 p) = rot (unitMul (qcol x0 p)) 0 2 := by
  show two * k0_pay15 x0 (ix1 p) * k0_pay17 x0 (ix1 p) + two * k0_pay14 x0 (ix1 p) * k0_pay16 x0 (ix1 p) = _
  rw [pay14, pay15, pay16, pay17]; rfl
theorem r10 : k0_pay22 (k0_pay14 x0) (k0_pay17 x0) (k0_pay21 x0) (Scalar.ofBits .f32 0x40000000#32) (ix1 p)
    = rot (unitMul (qcol x0 p)) 1 0 := by
  show two * k0_pay15 x0 (ix1 p) * k0_pay16 x0 (ix1 p) + two * k0_pay14 x0 (ix1 p) * k0_pay17 x0 (ix1 p) = _
  rw [pay14, pay15, pay16, pay17]; rfl
theorem r11 : k0_pay23 (k0_pay15 x0) (k0_pay17 x0) (ix1 p) = rot (unitMul (qcol x0 p)) 1 1 := by
  show one - two * k0_pay15 x0 (ix1 p) * k0_pay15 x0 (ix1 p) - two * k0_pay17 x0 (ix1 p) * k0_pay17 x0 (ix1 p) = _
  rw [pay15, pay17]; rfl
theorem r12 : k0_pay24 (k0_pay14 x0) (k0_pay15 x0) (k0_pay16 x0) (k0_pay17 x0) (ix1 p) = rot (unitMul (qcol x0 p)) 1 2 := by
  show two * k0_pay16 x0 (ix1 p) * k0_pay17 x0 (ix1 p) - two * k0_pay14 x0 (ix1 p) * k0_pay15 x0 (ix1 p) = _
  rw [pay14, pay15, pay16, pay17]; rfl
theorem r20 : k0_pay25 (k0_pay14 x0) (k0_pay15 x0) (k0_pay16 x0) (k0_pay17 x0) (ix1 p) = rot (unitMul (qcol x0 p)) 2 0 := by
  show two * k0_pay15 x0 (ix1 p) * k0_pay17 x0 (ix1 p) - two * k0_pay14 x0 (ix1 p) * k0_pay16 x0 (ix1 p) = _
  rw [pay14, pay15, pay16, pay17]; rfl
theorem r21 : k0_pay26 (k0_pay14 x0) (k0_pay15 x0) (k0_pay16 x0) (k0_pay17 x0) (ix1 p) = rot (unitMul (qcol x0 p)) 2 1 := by
  show two * k0_pay16 x0 (ix1 p) * k0_pay17 x0 (ix1 p) + two * k0_pay14 x0 (ix1 p) * k0_pay15 x0 (ix1 p) = _
  rw [pay14, pay15, pay16, pay17]; rfl
theorem r22 : k0_pay27 (k0_pay15 x0) (k0_pay16 x0) (ix1 p) = rot (unitMul (qcol x0 p)) 2 2 := by
  show one - two * k0_pay15 x0 (ix1 p) * k0_pay15 x0 (ix1 p) - two * k0_pay16 x0 (ix1 p) * k0_pay16 x0 (ix1 p) = _
  rw [pay15, pay16]; rfl

end Rot

/-! ## Products of two scaled rows

For rotation rows (a, b, c) and (a', b', c') as vectors and a scale block, the sum over the three columns of the
products of the scaled entries, at p. -/

section Rows
variable (a b c a' b' c' : FVec Ideal S262144 .f32) (x1 : Vec Ideal S3x262144 .f32) (p : Fin 262144)

/-- The value both forms below compute. -/
def dot3 : EReal :=
  (a (ix1 p) * x1 (ix2 0 p)) * (a' (ix1 p) * x1 (ix2 0 p)) + (b (ix1 p) * x1 (ix2 1 p)) * (b' (ix1 p) * x1 (ix2 1 p))
    + (c (ix1 p) * x1 (ix2 2 p)) * (c' (ix1 p) * x1 (ix2 2 p))

theorem dot_pay42 : k0_pay42 a b c a' b' c' (k0_pay28 x1) (k0_pay29 x1) (ix1 p) = dot3 a b c a' b' c' x1 p := by
  show (a (ix1 p) * k0_pay30 (k0_pay29 x1) (ix1 p)) * (a' (ix1 p) * k0_pay30 (k0_pay29 x1) (ix1 p))
    + (b (ix1 p) * k0_pay31 (k0_pay28 x1) (ix1 p)) * (b' (ix1 p) * k0_pay31 (k0_pay28 x1) (ix1 p))
    + (c (ix1 p) * k0_pay32 (k0_pay28 x1) (ix1 p)) * (c' (ix1 p) * k0_pay32 (k0_pay28 x1) (ix1 p)) = _
  rw [pay30, pay31, pay32]; rfl
theorem dot_pay43 : k0_pay43 a b c a' b' c' (k0_pay28 x1) (k0_pay29 x1) (ix1 p) = dot3 a b c a' b' c' x1 p := by
  show (a (ix1 p) * k0_pay30 (k0_pay29 x1) (ix1 p)) * (a' (ix1 p) * k0_pay30 (k0_pay29 x1) (ix1 p))
    + (b (ix1 p) * k0_pay31 (k0_pay28 x1) (ix1 p)) * (b' (ix1 p) * k0_pay31 (k0_pay28 x1) (ix1 p))
    + (c (ix1 p) * k0_pay32 (k0_pay28 x1) (ix1 p)) * (c' (ix1 p) * k0_pay32 (k0_pay28 x1) (ix1 p)) = _
  rw [pay30, pay31, pay32]; rfl
theorem dot_pay45 : k0_pay45 a b c a' b' c' (k0_pay28 x1) (k0_pay29 x1) (ix1 p) = dot3 a b c a' b' c' x1 p := by
  show (a (ix1 p) * k0_pay30 (k0_pay29 x1) (ix1 p)) * (a' (ix1 p) * k0_pay30 (k0_pay29 x1) (ix1 p))
    + (b (ix1 p) * k0_pay31 (k0_pay28 x1) (ix1 p)) * (b' (ix1 p) * k0_pay31 (k0_pay28 x1) (ix1 p))
    + (c (ix1 p) * k0_pay32 (k0_pay28 x1) (ix1 p)) * (c' (ix1 p) * k0_pay32 (k0_pay28 x1) (ix1 p)) = _
  rw [pay30, pay31, pay32]; rfl
theorem dot_pay44 : k0_pay44 a b c (k0_pay28 x1) (k0_pay29 x1) (ix1 p) = dot3 a b c a b c x1 p := by
  show (a (ix1 p) * k0_pay30 (k0_pay29 x1) (ix1 p)) * (a (ix1 p) * k0_pay30 (k0_pay29 x1) (ix1 p))
    + (b (ix1 p) * k0_pay31 (k0_pay28 x1) (ix1 p)) * (b (ix1 p) * k0_pay31 (k0_pay28 x1) (ix1 p))
    + (c (ix1 p) * k0_pay32 (k0_pay28 x1) (ix1 p)) * (c (ix1 p) * k0_pay32 (k0_pay28 x1) (ix1 p)) = _
  rw [pay30, pay31, pay32]; rfl
theorem dot_pay46 : k0_pay46 a b c (k0_pay28 x1) (k0_pay29 x1) (ix1 p) = dot3 a b c a b c x1 p := by
  show (a (ix1 p) * k0_pay30 (k0_pay29 x1) (ix1 p)) * (a (ix1 p) * k0_pay30 (k0_pay29 x1) (ix1 p))
    + (b (ix1 p) * k0_pay31 (k0_pay28 x1) (ix1 p)) * (b (ix1 p) * k0_pay31 (k0_pay28 x1) (ix1 p))
    + (c (ix1 p) * k0_pay32 (k0_pay28 x1) (ix1 p)) * (c (ix1 p) * k0_pay32 (k0_pay28 x1) (ix1 p)) = _
  rw [pay30, pay31, pay32]; rfl
/-- The first row's product with itself is stored as a [1, n] slice. -/
theorem dot_pay47 (u : Fin 1) : k0_pay47 a b c (k0_pay28 x1) (k0_pay29 x1) (ix2 u p) = dot3 a b c a b c x1 p := by
  unfold k0_pay47
  rw [shapeCast_a_1a_apply]
  show (a (ix1 p) * k0_pay30 (k0_pay29 x1) (ix1 p)) * (a (ix1 p) * k0_pay30 (k0_pay29 x1) (ix1 p))
    + (b (ix1 p) * k0_pay31 (k0_pay28 x1) (ix1 p)) * (b (ix1 p) * k0_pay31 (k0_pay28 x1) (ix1 p))
    + (c (ix1 p) * k0_pay32 (k0_pay28 x1) (ix1 p)) * (c (ix1 p) * k0_pay32 (k0_pay28 x1) (ix1 p)) = _
  rw [pay30, pay31, pay32]; rfl
theorem dot_pay48 (u : Fin 1) : k0_pay48 a b c a' b' c' (k0_pay28 x1) (k0_pay29 x1) (ix2 u p) = dot3 a b c a' b' c' x1 p := by
  unfold k0_pay48
  rw [shapeCast_a_1a_apply]; exact dot_pay42 a b c a' b' c' x1 p

end Rows

/-- With the rotation rows of column p, the products are the entries of M · Mᵀ. -/
theorem dot3_eq_gram (x0 : Vec Ideal S4x262144 .f32) (x1 : Vec Ideal S3x262144 .f32) (p : Fin 262144)
    (a b c a' b' c' : FVec Ideal S262144 .f32) (i j : Fin 3)
    (ha : a (ix1 p) = rot (unitMul (qcol x0 p)) i 0) (hb : b (ix1 p) = rot (unitMul (qcol x0 p)) i 1)
    (hc : c (ix1 p) = rot (unitMul (qcol x0 p)) i 2) (ha' : a' (ix1 p) = rot (unitMul (qcol x0 p)) j 0)
    (hb' : b' (ix1 p) = rot (unitMul (qcol x0 p)) j 1) (hc' : c' (ix1 p) = rot (unitMul (qcol x0 p)) j 2) :
    dot3 a b c a' b' c' x1 p = cov (qcol x0 p) (scol x1 p) i j := by
  unfold dot3; rw [ha, hb, hc, ha', hb', hc']; rfl

end Cert.KernelIdeal.Pay

end
-- ==== Proof.KernelBlock.lean ====
/-
  The kernel's output block is one function of its two input blocks: entry (r, p) of the [9, 262144] block is the
  covariance entry (r / 3, r % 3) of column p's quaternion and scales. The block is written by nine row stores; each
  store's payload is that function on its row, and the nine rows cover the block.
-/
import proofs.«157644_j47562467836190_2_alg».proof.Proof.KernelPay

set_option maxRecDepth 16384

noncomputable section

namespace Cert.KernelIdeal.Pay

open Idealize.ShloMosaic Idealize.ShloMosaic.ValueIdx Cert.KernelIdeal Cert.KernelIdeal.Gen Cert.Cov

/-- Entry (r, p) of the output block: the covariance entry (r / 3, r % 3) of column p. -/
def blockCov (x0 : Vec Ideal S4x262144 .f32) (x1 : Vec Ideal S3x262144 .f32) : S9x262144.Idx → EReal := fun y =>
  cov (qcol x0 (y 1)) (scol x1 (y 1)) ⟨(y 0).val / 3, by have := idx2_lt0 y; omega⟩ ⟨(y 0).val % 3, Nat.mod_lt _ (by decide)⟩

theorem hz : (![0, 0] : Fin 2 → Nat) = fun _ => 0 := funext fun a => by fin_cases a <;> rfl

/-- The block function at an index whose column is p and whose row splits as 3·i + j. -/
theorem blockCov_at (x0 : Vec Ideal S4x262144 .f32) (x1 : Vec Ideal S3x262144 .f32) (y : S9x262144.Idx) (p : Fin 262144)
    (i j : Fin 3) (h1 : y 1 = p) (hi : (y 0).val / 3 = i.val) (hj : (y 0).val % 3 = j.val) :
    blockCov x0 x1 y = cov (qcol x0 p) (scol x1 p) i j := by
  subst h1
  unfold blockCov
  congr 1
  · exact Fin.ext hi
  · exact Fin.ext hj

/-- A payload that is the covariance entry (i, j) of each column, read through the one-row rectangle at row
    r = 3·i + j, is the block function there. -/
theorem piece_row (x0 : Vec Ideal S4x262144 .f32) (x1 : Vec Ideal S3x262144 .f32) (r : Nat) (inb) (i j : Fin 3)
    (hi : r / 3 = i.val) (hj : r % 3 = j.val) (P : FVec Ideal S1x262144 .f32)
    (hP : ∀ (u : Fin 1) (p : Fin 262144), P (ix2 u p) = cov (qcol x0 p) (scol x1 p) i j) (x : S1x262144.Idx) :
    P x = blockCov x0 x1 ((Rect.unit (s := S9x262144) ![r, 0] S1x262144.size inb).emb x) := by
  obtain ⟨u, p, rfl⟩ : ∃ (u : Fin 1) (p : Fin 262144), x = ix2 u p := ⟨x 0, x 1, eq_ix2 x⟩
  have hu : u.val = 0 := by omega
  rw [hP u p]
  exact (blockCov_at x0 x1 _ p i j (Fin.ext (by show 0 + 1 * p.val = p.val; omega))
    (by show (r + 1 * u.val) / 3 = i.val; rw [hu]; omega) (by show (r + 1 * u.val) % 3 = j.val; rw [hu]; omega)).symm

/-- A vector stored as a one-row slice. -/
theorem asRow (v : FVec Ideal S262144 .f32) (h) (u : Fin 1) (p : Fin 262144) :
    shapeCast S1x262144 v h (ix2 u p) = v (ix1 p) := shapeCast_a_1a_apply v h u p

section
variable (x0 : Vec Ideal S4x262144 .f32) (x1 : Vec Ideal S3x262144 .f32) (u : Fin 1) (p : Fin 262144)

theorem row0 : k0_pay47 (k0_pay18 x0) (k0_pay19 x0) (k0_pay20 x0) (k0_pay28 x1) (k0_pay29 x1) (ix2 u p)
    = cov (qcol x0 p) (scol x1 p) 0 0 :=
  (dot_pay47 _ _ _ x1 p u).trans (dot3_eq_gram x0 x1 p _ _ _ _ _ _ 0 0 (r00 x0 p) (r01 x0 p) (r02 x0 p) (r00 x0 p) (r01 x0 p) (r02 x0 p))

theorem row1 : k0_pay48 (k0_pay18 x0) (k0_pay19 x0) (k0_pay20 x0)
      (k0_pay22 (k0_pay14 x0) (k0_pay17 x0) (k0_pay21 x0) (Scalar.ofBits .f32 0x40000000#32)) (k0_pay23 (k0_pay15 x0) (k0_pay17 x0))
      (k0_pay24 (k0_pay14 x0) (k0_pay15 x0) (k0_pay16 x0) (k0_pay17 x0)) (k0_pay28 x1) (k0_pay29 x1) (ix2 u p)
    = cov (qcol x0 p) (scol x1 p) 0 1 :=
  (dot_pay48 _ _ _ _ _ _ x1 p u).trans (dot3_eq_gram x0 x1 p _ _ _ _ _ _ 0 1 (r00 x0 p) (r01 x0 p) (r02 x0 p) (r10 x0 p) (r11 x0 p) (r12 x0 p))

theorem row2 : k0_pay1 (k0_pay43 (k0_pay18 x0) (k0_pay19 x0) (k0_pay20 x0)
      (k0_pay25 (k0_pay14 x0) (k0_pay15 x0) (k0_pay16 x0) (k0_pay17 x0)) (k0_pay26 (k0_pay14 x0) (k0_pay15 x0) (k0_pay16 x0) (k0_pay17 x0))
      (k0_pay27 (k0_pay15 x0) (k0_pay16 x0)) (k0_pay28 x1) (k0_pay29 x1)) (ix2 u p)
    = cov (qcol x0 p) (scol x1 p) 0 2 :=
  (asRow _ _ u p).trans ((dot_pay43 _ _ _ _ _ _ x1 p).trans
    (dot3_eq_gram x0 x1 p _ _ _ _ _ _ 0 2 (r00 x0 p) (r01 x0 p) (r02 x0 p) (r20 x0 p) (r21 x0 p) (r22 x0 p)))

theorem row3 : k0_pay2 (k0_pay42 (k0_pay18 x0) (k0_pay19 x0) (k0_pay20 x0)
      (k0_pay22 (k0_pay14 x0) (k0_pay17 x0) (k0_pay21 x0) (Scalar.ofBits .f32 0x40000000#32)) (k0_pay23 (k0_pay15 x0) (k0_pay17 x0))
      (k0_pay24 (k0_pay14 x0) (k0_pay15 x0) (k0_pay16 x0) (k0_pay17 x0)) (k0_pay28 x1) (k0_pay29 x1)) (ix2 u p)
    = cov (qcol x0 p) (scol x1 p) 1 0 :=
  ((asRow _ _ u p).trans ((dot_pay42 _ _ _ _ _ _ x1 p).trans
    (dot3_eq_gram x0 x1 p _ _ _ _ _ _ 0 1 (r00 x0 p) (r01 x0 p) (r02 x0 p) (r10 x0 p) (r11 x0 p) (r12 x0 p)))).trans (cov_symm _ _ 0 1)

theorem row4 : k0_pay3 (k0_pay44 (k0_pay22 (k0_pay14 x0) (k0_pay17 x0) (k0_pay21 x0) (Scalar.ofBits .f32 0x40000000#32))
      (k0_pay23 (k0_pay15 x0) (k0_pay17 x0)) (k0_pay24 (k0_pay14 x0) (k0_pay15 x0) (k0_pay16 x0) (k0_pay17 x0))
      (k0_pay28 x1) (k0_pay29 x1)) (ix2 u p)
    = cov (qcol x0 p) (scol x1 p) 1 1 :=
  (asRow _ _ u p).trans ((dot_pay44 _ _ _ x1 p).trans
    (dot3_eq_gram x0 x1 p _ _ _ _ _ _ 1 1 (r10 x0 p) (r11 x0 p) (r12 x0 p) (r10 x0 p) (r11 x0 p) (r12 x0 p)))

theorem row5 : k0_pay4 (k0_pay45 (k0_pay22 (k0_pay14 x0) (k0_pay17 x0) (k0_pay21 x0) (Scalar.ofBits .f32 0x40000000#32))
      (k0_pay23 (k0_pay15 x0) (k0_pay17 x0)) (k0_pay24 (k0_pay14 x0) (k0_pay15 x0) (k0_pay16 x0) (k0_pay17 x0))
      (k0_pay25 (k0_pay14 x0) (k0_pay15 x0) (k0_pay16 x0) (k0_pay17 x0)) (k0_pay26 (k0_pay14 x0) (k0_pay15 x0) (k0_pay16 x0) (k0_pay17 x0))
      (k0_pay27 (k0_pay15 x0) (k0_pay16 x0)) (k0_pay28 x1) (k0_pay29 x1)) (ix2 u p)
    = cov (qcol x0 p) (scol x1 p) 1 2 :=
  (asRow _ _ u p).trans ((dot_pay45 _ _ _ _ _ _ x1 p).trans
    (dot3_eq_gram x0 x1 p _ _ _ _ _ _ 1 2 (r10 x0 p) (r11 x0 p) (r12 x0 p) (r20 x0 p) (r21 x0 p) (r22 x0 p)))

theorem row6 : k0_pay5 (k0_pay43 (k0_pay18 x0) (k0_pay19 x0) (k0_pay20 x0)
      (k0_pay25 (k0_pay14 x0) (k0_pay15 x0) (k0_pay16 x0) (k0_pay17 x0)) (k0_pay26 (k0_pay14 x0) (k0_pay15 x0) (k0_pay16 x0) (k0_pay17 x0))
      (k0_pay27 (k0_pay15 x0) (k0_pay16 x0)) (k0_pay28 x1) (k0_pay29 x1)) (ix2 u p)
    = cov (qcol x0 p) (scol x1 p) 2 0 :=
  ((asRow _ _ u p).trans ((dot_pay43 _ _ _ _ _ _ x1 p).trans
    (dot3_eq_gram x0 x1 p _ _ _ _ _ _ 0 2 (r00 x0 p) (r01 x0 p) (r02 x0 p) (r20 x0 p) (r21 x0 p) (r22 x0 p)))).trans (cov_symm _ _ 0 2)

theorem row7 : k0_pay6 (k0_pay45 (k0_pay22 (k0_pay14 x0) (k0_pay17 x0) (k0_pay21 x0) (Scalar.ofBits .f32 0x40000000#32))
      (k0_pay23 (k0_pay15 x0) (k0_pay17 x0)) (k0_pay24 (k0_pay14 x0) (k0_pay15 x0) (k0_pay16 x0) (k0_pay17 x0))
      (k0_pay25 (k0_pay14 x0) (k0_pay15 x0) (k0_pay16 x0) (k0_pay17 x0)) (k0_pay26 (k0_pay14 x0) (k0_pay15 x0) (k0_pay16 x0) (k0_pay17 x0))
      (k0_pay27 (k0_pay15 x0) (k0_pay16 x0)) (k0_pay28 x1) (k0_pay29 x1)) (ix2 u p)
    = cov (qcol x0 p) (scol x1 p) 2 1 :=
  ((asRow _ _ u p).trans ((dot_pay45 _ _ _ _ _ _ x1 p).trans
    (dot3_eq_gram x0 x1 p _ _ _ _ _ _ 1 2 (r10 x0 p) (r11 x0 p) (r12 x0 p) (r20 x0 p) (r21 x0 p) (r22 x0 p)))).trans (cov_symm _ _ 1 2)

theorem row8 : k0_pay7 (k0_pay46 (k0_pay25 (k0_pay14 x0) (k0_pay15 x0) (k0_pay16 x0) (k0_pay17 x0))
      (k0_pay26 (k0_pay14 x0) (k0_pay15 x0) (k0_pay16 x0) (k0_pay17 x0)) (k0_pay27 (k0_pay15 x0) (k0_pay16 x0))
      (k0_pay28 x1) (k0_pay29 x1)) (ix2 u p)
    = cov (qcol x0 p) (scol x1 p) 2 2 :=
  (asRow _ _ u p).trans ((dot_pay46 _ _ _ x1 p).trans
    (dot3_eq_gram x0 x1 p _ _ _ _ _ _ 2 2 (r20 x0 p) (r21 x0 p) (r22 x0 p) (r20 x0 p) (r21 x0 p) (r22 x0 p)))

end

/-- The block the body leaves is `blockCov` of the input blocks. -/
theorem out_eq (x0 : Vec Ideal S4x262144 .f32) (x1 : Vec Ideal S3x262144 .f32) : out0_2 x0 x1 = blockCov x0 x1 := by
  funext y
  unfold out0_2
  simp only [View.ld_unit_zero (S := S4x262144) hz, View.ld_unit_zero (S := S3x262144) hz]
  refine View.canon_apply_of_pieces (Val := Elt Ideal) (S := S9x262144) (e := .f32) (blockCov x0 x1) _ ?_ y (cover0_2 _ _ _ _ _ _ _ _ _ y)
  intro pc hpc
  simp only [List.mem_cons, List.mem_nil_iff, or_false] at hpc
  rcases hpc with rfl | rfl | rfl | rfl | rfl | rfl | rfl | rfl | rfl
  · exact piece_row x0 x1 8 inb_S9x262144_S1x262144_8_0 2 2 rfl rfl _ (fun u p => row8 x0 x1 u p)
  · exact piece_row x0 x1 7 inb_S9x262144_S1x262144_7_0 2 1 rfl rfl _ (fun u p => row7 x0 x1 u p)
  · exact piece_row x0 x1 6 inb_S9x262144_S1x262144_6_0 2 0 rfl rfl _ (fun u p => row6 x0 x1 u p)
  · exact piece_row x0 x1 5 inb_S9x262144_S1x262144_5_0 1 2 rfl rfl _ (fun u p => row5 x0 x1 u p)
  · exact piece_row x0 x1 4 inb_S9x262144_S1x262144_4_0 1 1 rfl rfl _ (fun u p => row4 x0 x1 u p)
  · exact piece_row x0 x1 3 inb_S9x262144_S1x262144_3_0 1 0 rfl rfl _ (fun u p => row3 x0 x1 u p)
  · exact piece_row x0 x1 2 inb_S9x262144_S1x262144_2_0 0 2 rfl rfl _ (fun u p => row2 x0 x1 u p)
  · exact piece_row x0 x1 1 inb_S9x262144_S1x262144_1_0 0 1 rfl rfl _ (fun u p => row1 x0 x1 u p)
  · exact piece_row x0 x1 0 inb_S9x262144_S1x262144_0_0 0 0 rfl rfl _ (fun u p => row0 x0 x1 u p)

end Cert.KernelIdeal.Pay

end
-- ==== Proof.KernelArr.lean ====
/-
  From blocks to the array. The kernel's grid has 16 points; point t reads columns [t·262144, (t+1)·262144) of the
  padded quaternion array [4, 4194304] and of the padded scale array [3, 4194304] and writes the same columns of the
  output array [9, 4194304], all rows. The block a point writes is the covariance of its own columns, so the output
  array after the run is, column by column, the covariance of that column of the two padded arrays:
  entry (r, n) is the covariance entry (r / 3, r % 3) of the quaternion and scales in column n.
-/
import proofs.«157644_j47562467836190_2_alg».proof.Proof.KernelBlock

set_option maxRecDepth 16384

noncomputable section

namespace Cert.KernelIdeal.Arr

open Idealize.ShloMosaic Idealize.ShloMosaic.ValueIdx Idealize.ShloMosaic.TcCoe Idealize.SL.Sem
open Cert.KernelIdeal Cert.KernelIdeal.Gen Cert.KernelIdeal.Pay Cert.Cov

/-- Entry (r, n) of the output array from the two padded input arrays: the covariance entry (r / 3, r % 3) of column n. -/
def arrCov (Q : S4x4194304.Idx → EReal) (S : S3x4194304.Idx → EReal) : S9x4194304.Idx → EReal := fun i =>
  cov (fun k => Q (ix2 k (i 1))) (fun k => S (ix2 k (i 1))) ⟨(i 0).val / 3, by have := idx2_lt0 i; omega⟩ ⟨(i 0).val % 3, Nat.mod_lt _ (by decide)⟩

/-- A block's entry is the array's entry where the block sits: same row, and the block's column p is the array's
    column n, for both inputs. -/
theorem blockCov_eq_arrCov (Q : S4x4194304.Idx → EReal) (S : S3x4194304.Idx → EReal)
    (b0 : Vec Ideal S4x262144 .f32) (b1 : Vec Ideal S3x262144 .f32) (j : S9x262144.Idx) (i : S9x4194304.Idx)
    (h0 : (j 0).val = (i 0).val)
    (hq : ∀ k : Fin 4, b0 (ix2 k (j 1)) = Q (ix2 k (i 1))) (hs : ∀ k : Fin 3, b1 (ix2 k (j 1)) = S (ix2 k (i 1))) :
    blockCov b0 b1 j = arrCov Q S i := by
  unfold blockCov arrCov
  have eq : qcol b0 (j 1) = fun k => Q (ix2 k (i 1)) := funext hq
  have es : scol b1 (j 1) = fun k => S (ix2 k (i 1)) := funext hs
  rw [eq, es]
  congr 1
  · exact Fin.ext (by show (j 0).val / 3 = (i 0).val / 3; rw [h0])
  · exact Fin.ext (by show (j 0).val % 3 = (i 0).val % 3; rw [h0])

variable (m : (ℓ : Loc nD τ sig) → Buf (Elt Ideal) ℓ)

/-- The printed index maps over the grid: every window sits at block row 0, and at block column t. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point t writes back is block t of `arrCov` of the two padded arrays as the region finds them. -/
theorem flushed_eq (c : Dev nD) (t : Fin cfg0.N) :
    (dats m 0 c).flushed 2 t = ((cfg0.win 2).blk t).view.read (Elt Ideal) (arrCov (V m c main_v2) (V m c main_v3)) := by
  show (cfg0.win 2).cut (grid0.coords t) ((dats m 0 c).after 2 t) = _
  rw [after0_2, out_eq]
  obtain ⟨e0, e1, e2, e3, e4, e5⟩ := idx_facts t
  funext j
  refine blockCov_eq_arrCov (V m c main_v2) (V m c main_v3) (iblk m c 0 t) (iblk m c 1 t) j (((cfg0.win 2).blk t).view.emb j) ?_ ?_ ?_
  · show (j 0).val = win0_2.index t (0 : Fin 2) * 9 + 1 * (j 0).val
    omega
  · intro k
    show V m c main_v2 (((cfg0.win 0).blk t).view.emb (ix2 k (j 1))) = V m c main_v2 (ix2 k ((((cfg0.win 2).blk t).view.emb j) 1))
    refine congrArg (V m c main_v2) (funext fun a => Fin.ext ?_)
    match a with
    | ⟨0, _⟩ => show win0_0.index t (0 : Fin 2) * 4 + 1 * k.val = k.val; omega
    | ⟨1, _⟩ => show win0_0.index t (1 : Fin 2) * 262144 + 1 * (j 1).val = win0_2.index t (1 : Fin 2) * 262144 + 1 * (j 1).val; omega
  · intro k
    show V m c main_v3 (((cfg0.win 1).blk t).view.emb (ix2 k (j 1))) = V m c main_v3 (ix2 k ((((cfg0.win 2).blk t).view.emb j) 1))
    refine congrArg (V m c main_v3) (funext fun a => Fin.ext ?_)
    match a with
    | ⟨0, _⟩ => show win0_1.index t (0 : Fin 2) * 3 + 1 * k.val = k.val; omega
    | ⟨1, _⟩ => show win0_1.index t (1 : Fin 2) * 262144 + 1 * (j 1).val = win0_2.index t (1 : Fin 2) * 262144 + 1 * (j 1).val; omega

/-- An index of the array is in point t's block iff each coordinate is in the block's range on its axis. -/
theorem mem_blk (t : Fin cfg0.N) (i : S9x4194304.Idx) :
    i ∈ ((cfg0.win 2).blk t).view.set ↔ ∀ a : Fin 2, win0_2.index t a * S9x262144.size a ≤ (i a).val ∧ (i a).val < win0_2.index t a * S9x262144.size a + S9x262144.size a := by
  show i ∈ ((View.whole main_v4).slice (win0_2.rect t)).set ↔ _
  rw [View.set_slice_whole, Rect.mem_set_unit]
  exact Iff.rfl

/-- Every index of the output array is in the block of the point its column falls in. -/
theorem cover (i : S9x4194304.Idx) : ∃ t : Fin cfg0.N, (cfg0.win 2).flush t = true ∧ i ∈ ((cfg0.win 2).blk t).view.set := by
  have hi0 : (i 0).val < 9 := idx2_lt0 i
  have hi1 : (i 1).val < 4194304 := idx2_lt1 i
  have hN : cfg0.N = 16 := N_0
  let t : Fin cfg0.N := ⟨(i 1).val / 262144, by rw [hN]; omega⟩
  obtain ⟨e0, e1, e2, e3, e4, e5⟩ := idx_facts t
  have e5' : win0_2.index t (1 : Fin 2) = (i 1).val / 262144 := e5
  refine ⟨t, flush0_2 t, ?_⟩
  rw [mem_blk]
  intro a
  match a with
  | ⟨0, _⟩ => show win0_2.index t (0 : Fin 2) * 9 ≤ (i 0).val ∧ (i 0).val < win0_2.index t (0 : Fin 2) * 9 + 9; omega
  | ⟨1, _⟩ => show win0_2.index t (1 : Fin 2) * 262144 ≤ (i 1).val ∧ (i 1).val < win0_2.index t (1 : Fin 2) * 262144 + 262144; omega

/-- The output array after the run. -/
theorem final (c : Dev nD) : (dats m 0 c).arrAt 2 cfg0.N = arrCov (V m c main_v2) (V m c main_v3) :=
  (dats m 0 c).arrAt_eq_of_cover 2 (arrCov (V m c main_v2) (V m c main_v3)) (fun t _ => flushed_eq m c t) cover

end Cert.KernelIdeal.Arr

end
-- ==== Proof.KernelHost.lean ====
/-
  The host operations around the kernel. Before it, each input is transposed ([N, 4] to [4, N], [N, 3] to [3, N]) and
  padded with zeros on the right to 4194304 columns; after it, the first N = 4000000 columns of the [9, 4194304]
  output are kept, the array is transposed to [N, 9] and reshaped to [N, 3, 3]. So result entry (n, i, j) is the
  kernel's output at row 3·i + j and column n, and column n < N of a padded input is row n of the argument. The padding
  columns are computed by the kernel but never read back.
-/
import proofs.«157644_j47562467836190_2_alg».proof.Proof.KernelArr
import Idealize.ShloMosaic.Lib.StableHlo.Run
import Idealize.ShloMosaic.Lib.KernelVsHost
import Idealize.ShloMosaic.Lib.ValueLayout

set_option maxRecDepth 16384

noncomputable section

namespace Cert.KernelIdeal.HostSide

open Idealize.ShloMosaic Idealize.ShloMosaic.ValueIdx Idealize.ShloMosaic.TcCoe Idealize.SL.Sem Idealize.ShloMosaic.StableHlo
open Cert.KernelIdeal Cert.KernelIdeal.Gen Cert.KernelIdeal.Arr Cert.Cov

variable (m : (ℓ : Loc nD τ sig) → Buf (Elt Ideal) ℓ)

/-! ## Before the kernel -/

/-- The quaternion array as the kernel finds it: transposed, then padded with the converted zero word. -/
theorem pre_q (c : Dev nD) : (V m c main_v2 : S4x4194304.Idx → EReal)
    = pad S4x4194304 ![0, 0] ![0, 194304] ![0, 0]
        (transpose S4x4000000 [1, 0] (m ((c : Thread nD τ).loc main_arg5)) transposes_S4000000x4_S4x4000000_1_0)
        (sitofp (F := Ideal) .f32 (constantI S_ 32 0#32)) pads_S4x4000000_S4x4194304_000_01943040 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results; rfl

/-- The scale array as the kernel finds it. -/
theorem pre_s (c : Dev nD) : (V m c main_v3 : S3x4194304.Idx → EReal)
    = pad S3x4194304 ![0, 0] ![0, 194304] ![0, 0]
        (transpose S3x4000000 [1, 0] (m ((c : Thread nD τ).loc main_arg4)) transposes_S4000000x3_S3x4000000_1_0)
        (sitofp (F := Ideal) .f32 (constantI S_ 32 0#32)) pads_S3x4000000_S3x4194304_000_01943040 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results; rfl

/-- Column n of the padded quaternion array, for n inside the argument, is row n of the argument. -/
theorem q_at (c : Dev nD) (k : Fin 4) (n : Fin 4000000) (n' : Fin 4194304) (hn : n'.val = n.val) :
    V m c main_v2 (ix2 k n') = m ((c : Thread nD τ).loc main_arg5) (ix2 n k) := by
  refine (congrFun (pre_q m c) (ix2 k n')).trans ?_
  rw [pad_apply_of_inside _ _ _ _ _ _ _ (ix2 k n') (ix2 k n) (fun a => by
    match a with
    | ⟨0, _⟩ => show k.val = 0 + k.val * (0 + 1); omega
    | ⟨1, _⟩ => show n'.val = 0 + n.val * (0 + 1); omega)]
  exact transpose_ix2_apply _ _ k n

/-- Column n of the padded scale array, for n inside the argument, is row n of the argument. -/
theorem s_at (c : Dev nD) (k : Fin 3) (n : Fin 4000000) (n' : Fin 4194304) (hn : n'.val = n.val) :
    V m c main_v3 (ix2 k n') = m ((c : Thread nD τ).loc main_arg4) (ix2 n k) := by
  refine (congrFun (pre_s m c) (ix2 k n')).trans ?_
  rw [pad_apply_of_inside _ _ _ _ _ _ _ (ix2 k n') (ix2 k n) (fun a => by
    match a with
    | ⟨0, _⟩ => show k.val = 0 + k.val * (0 + 1); omega
    | ⟨1, _⟩ => show n'.val = 0 + n.val * (0 + 1); omega)]
  exact transpose_ix2_apply _ _ k n

/-! ## After the kernel -/

/-- The three operations after the kernel, of its output array. -/
def tailOf (O : S9x4194304.Idx → EReal) : S4000000x3x3.Idx → EReal :=
  shapeCast S4000000x3x3
    (transpose S4000000x9 [1, 0] (extractStridedSlice S9x4000000 ![0, 0] O slices_S9x4194304_S9x4000000_0_0)
      transposes_S9x4000000_S4000000x9_1_0)
    shapeCasts_S4000000x9_S4000000x3x3

/-- Entry (n, i, j) of the result is the output array at row 3·i + j, column n. -/
theorem tail_at (O : S9x4194304.Idx → EReal) (n : Fin 4000000) (a b : Fin 3) (r : Fin 9) (n' : Fin 4194304)
    (hr : r.val = 3 * a.val + b.val) (hn : n'.val = n.val) : tailOf O (ix3 n a b) = O (ix2 r n') := by
  unfold tailOf
  rw [shapeCast_apply _ _ (ix3 n a b) (ix2 n r) (by
    rw [Shape.rowMajor_val_two, Shape.rowMajor_val_three]
    show n.val * 9 + r.val = (n.val * 3 + a.val) * 3 + b.val
    omega)]
  rw [transpose_ix2_apply]
  exact slice2_axis1_apply 0 O _ r n n' (by omega)

/-- What the program returns as its third result: the covariance array of the two arguments. -/
theorem result_eq (c : Dev nD) :
    (Pipeline.afterTail₀ cfgs (dats m) 0 (V0 m) [hostOps1] c main_v7 : S4000000x3x3.Idx → EReal)
      = covArr (m ((c : Thread nD τ).loc main_arg5)) (m ((c : Thread nD τ).loc main_arg4)) := by
  have e : (Pipeline.afterTail₀ cfgs (dats m) 0 (V0 m) [hostOps1] c main_v7 : S4000000x3x3.Idx → EReal)
      = tailOf (arrCov (V m c main_v2) (V m c main_v3)) := by
    unfold Pipeline.afterTail₀
    show StableHlo.after hostOps1 _ (Proc.devRef .tc main_v7) = _
    after_results
    rw [Pipeline.withArrays_arr spec0 launch0.win.arr_inj c _ _ 2, Arr.final m c]
    rfl
  rw [e]
  funext i
  obtain ⟨n, a, b, rfl⟩ : ∃ (n : Fin 4000000) (a b : Fin 3), i = ix3 n a b := ⟨i 0, i 1, i 2, eq_ix3 i⟩
  have hn : n.val < 4194304 := by have := n.isLt; omega
  have hr : 3 * a.val + b.val < 9 := by have := a.isLt; have := b.isLt; omega
  rw [tail_at _ n a b ⟨3 * a.val + b.val, hr⟩ ⟨n.val, hn⟩ rfl rfl]
  show cov (fun k => V m c main_v2 (ix2 k ⟨n.val, hn⟩)) (fun k => V m c main_v3 (ix2 k ⟨n.val, hn⟩))
      ⟨(3 * a.val + b.val) / 3, _⟩ ⟨(3 * a.val + b.val) % 3, _⟩
    = cov (fun k => m ((c : Thread nD τ).loc main_arg5) (ix2 n k)) (fun k => m ((c : Thread nD τ).loc main_arg4) (ix2 n k)) a b
  have eq : (fun k => V m c main_v2 (ix2 k ⟨n.val, hn⟩)) = fun k => m ((c : Thread nD τ).loc main_arg5) (ix2 n k) :=
    funext fun k => q_at m c k n ⟨n.val, hn⟩ rfl
  have es : (fun k => V m c main_v3 (ix2 k ⟨n.val, hn⟩)) = fun k => m ((c : Thread nD τ).loc main_arg4) (ix2 n k) :=
    funext fun k => s_at m c k n ⟨n.val, hn⟩ rfl
  rw [eq, es]
  congr 1
  · exact Fin.ext (by show (3 * a.val + b.val) / 3 = a.val; have := b.isLt; omega)
  · exact Fin.ext (by show (3 * a.val + b.val) % 3 = b.val; have := b.isLt; omega)

end Cert.KernelIdeal.HostSide

end
-- ==== Proof.KernelRun.lean ====
/-
  The kernel program's run, with its results named: every weakly fair execution terminates with the third result — the
  [N, 3, 3] array — at the covariance array of the quaternion and scale arguments, the other three results the
  arguments they return, and every argument unchanged.
-/
import proofs.«157644_j47562467836190_2_alg».proof.Proof.KernelHost

set_option maxRecDepth 16384

noncomputable section

namespace Cert.KernelIdeal.Run

open Idealize.ShloMosaic Idealize.ShloMosaic.TcCoe Idealize.SL.Sem
open Cert.KernelIdeal Cert.KernelIdeal.Gen Cert.Cov

variable (m : (ℓ : Loc nD τ sig) → Buf (Elt Ideal) ℓ) (ρ : Dev nD → PrngReg)

theorem run : θ_run defs (onTc (τ := τ) (main (F := Ideal))) ⟨m, fun _ => 0, ρ⟩ (fun r => ∀ c : Dev nD,
      r.2.mem ((c.tc : Thread nD τ).loc main_arg3) = m ((c.tc : Thread nD τ).loc main_arg3)
      ∧ r.2.mem ((c.tc : Thread nD τ).loc main_arg6) = m ((c.tc : Thread nD τ).loc main_arg6)
      ∧ r.2.mem ((c.tc : Thread nD τ).loc main_v7) = covArr (m ((c.tc : Thread nD τ).loc main_arg5)) (m ((c.tc : Thread nD τ).loc main_arg4))
      ∧ r.2.mem ((c.tc : Thread nD τ).loc main_arg7) = m ((c.tc : Thread nD τ).loc main_arg7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).2 main_arg3 (Pipeline.mem_restRefs_of main_arg3 (by decide) (by decide))).trans (W_main_arg3 m (dats m) c),
      ((h c).2 main_arg6 (Pipeline.mem_restRefs_of main_arg6 (by decide) (by decide))).trans (W_main_arg6 m (dats m) c),
      ((h c).2 main_v7 (Pipeline.mem_restRefs_of main_v7 (by decide) (by decide))).trans (HostSide.result_eq m c),
      ((h c).2 main_arg7 (Pipeline.mem_restRefs_of main_arg7 (by decide) (by decide))).trans (W_main_arg7 m (dats m) c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Run

end
-- ==== Proof.RefUnit.lean ====
/-
  The reference divides each quaternion (a row of the [N, 4] array) by its length: the square root of the zero word
  plus the sum over the row of the squares. Component k of row n, so divided, is read here at an index.
-/
import proofs.«157644_j47562467836190_2_alg».proof.Defs
import proofs.«157644_j47562467836190_2_alg».proof.Proof.Gen.ReferenceIdeal.Read
import proofs.«157644_j47562467836190_2_alg».proof.Proof.Spec
import Idealize.ShloMosaic.Lib.Pipeline.Value
import Idealize.ShloMosaic.Lib.ValueIdx

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Cov

/-- Row n of the quaternion array, and of the scale array. -/
def qrow (x5 : S4000000x4.Idx → EReal) (n : Fin 4000000) : Fin 4 → EReal := fun k => x5 (ix2 n k)
def srow (x4 : S4000000x3.Idx → EReal) (n : Fin 4000000) : Fin 3 → EReal := fun k => x4 (ix2 n k)

variable (x5 : S4000000x4.Idx → EReal) (n : Fin 4000000)

/-! ## The unit quaternion of a row -/

/-- The squared length of row n: the zero word plus the sum over the row of the squares. -/
theorem norm_sq : val_main_call0_v1 (F := Ideal) x5 (ix1 n) = sumsq (qrow x5 n) := by
  rw [val_main_call0_v1_apply]
  have e : ∀ k : Fin 4, val_main_call0_v0 (F := Ideal) x5 (idx_main_call0_v1 (ix1 n) k) = qrow x5 n k * qrow x5 n k := fun k => by
    have ei : idx_main_call0_v1 (ix1 n) k = ix2 n k := funext fun a => Fin.ext (by match a with | ⟨0, _⟩ => rfl | ⟨1, _⟩ => rfl)
    rw [val_main_call0_v0_apply, ei]; rfl
  simp only [e]
  exact zero_add_sum_eq_sumsq (qrow x5 n)

/-- Component k of row n divided by the row's length. -/
theorem divided (k : Fin 4) : val_main_v2 (F := Ideal) x5 (ix2 n k) = unitDiv (qrow x5 n) k := by
  have e2 : idx_main_call0_v2 (idx_main_v1 (ix2 n k)) = ix1 n := funext fun a => Fin.ext (by match a with | ⟨0, _⟩ => rfl)
  rw [val_main_v2_apply, val_main_v1_apply, val_main_v0_apply, val_main_call0_v2_apply, e2, norm_sq]
  rfl

theorem unit0 : val_main_v4 (F := Ideal) x5 (ix1 n) = unitDiv (qrow x5 n) 0 := by
  have e : idx_main_v3 (idx_main_v4 (ix1 n)) = ix2 n 0 :=
    funext fun a => Fin.ext (by match a with | ⟨0, _⟩ => exact Nat.div_one _ | ⟨1, _⟩ => rfl)
  rw [val_main_v4_apply, val_main_v3_apply, e, divided]
theorem unit1 : val_main_v6 (F := Ideal) x5 (ix1 n) = unitDiv (qrow x5 n) 1 := by
  have e : idx_main_v5 (idx_main_v6 (ix1 n)) = ix2 n 1 :=
    funext fun a => Fin.ext (by match a with | ⟨0, _⟩ => exact Nat.div_one _ | ⟨1, _⟩ => rfl)
  rw [val_main_v6_apply, val_main_v5_apply, e, divided]
theorem unit2 : val_main_v8 (F := Ideal) x5 (ix1 n) = unitDiv (qrow x5 n) 2 := by
  have e : idx_main_v7 (idx_main_v8 (ix1 n)) = ix2 n 2 :=
    funext fun a => Fin.ext (by match a with | ⟨0, _⟩ => exact Nat.div_one _ | ⟨1, _⟩ => rfl)
  rw [val_main_v8_apply, val_main_v7_apply, e, divided]
theorem unit3 : val_main_v10 (F := Ideal) x5 (ix1 n) = unitDiv (qrow x5 n) 3 := by
  have e : idx_main_v9 (idx_main_v10 (ix1 n)) = ix2 n 3 :=
    funext fun a => Fin.ext (by match a with | ⟨0, _⟩ => exact Nat.div_one _ | ⟨1, _⟩ => rfl)
  rw [val_main_v10_apply, val_main_v9_apply, e, divided]

end Cert.ReferenceIdeal.RefValue

end
-- ==== Proof.RefRot.lean ====
/-
  The nine rotation entries the reference builds, as vectors over the N splats, read at splat n: each is a pointwise
  expression of the four components of the unit quaternion of row n and the literals 2 and 1.
-/
import proofs.«157644_j47562467836190_2_alg».proof.Defs
import proofs.«157644_j47562467836190_2_alg».proof.Proof.Gen.ReferenceIdeal.Read
import proofs.«157644_j47562467836190_2_alg».proof.Proof.Spec
import proofs.«157644_j47562467836190_2_alg».proof.Proof.RefUnit
import Idealize.ShloMosaic.Lib.Pipeline.Value
import Idealize.ShloMosaic.Lib.ValueIdx

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Cov

variable (x5 : S4000000x4.Idx → EReal) (n : Fin 4000000)

/-! ## The nine rotation entries of a row: pointwise operations of the four unit components -/

theorem r00 : val_main_v19 (F := Ideal) x5 (ix1 n) = rot (unitDiv (qrow x5 n)) 0 0 := by
  rw [val_main_v19_apply, val_main_v15_apply, val_main_v14_apply, val_main_cst_0_apply, val_main_v13_apply, val_main_v12_apply, val_main_v11_apply, val_main_cst_apply, val_main_v18_apply, val_main_v17_apply, val_main_v16_apply, val_main_cst_1_apply,
    unit2, unit3]
  rfl
theorem r01 : val_main_v26 (F := Ideal) x5 (ix1 n) = rot (unitDiv (qrow x5 n)) 0 1 := by
  rw [val_main_v26_apply, val_main_v22_apply, val_main_v21_apply, val_main_v20_apply, val_main_cst_2_apply, val_main_v25_apply, val_main_v24_apply, val_main_v23_apply, val_main_cst_3_apply,
    unit0, unit1, unit2, unit3]
  rfl
theorem r02 : val_main_v33 (F := Ideal) x5 (ix1 n) = rot (unitDiv (qrow x5 n)) 0 2 := by
  rw [val_main_v33_apply, val_main_v29_apply, val_main_v28_apply, val_main_v27_apply, val_main_cst_4_apply, val_main_v32_apply, val_main_v31_apply, val_main_v30_apply, val_main_cst_5_apply,
    unit0, unit1, unit2, unit3]
  rfl
theorem r10 : val_main_v40 (F := Ideal) x5 (ix1 n) = rot (unitDiv (qrow x5 n)) 1 0 := by
  rw [val_main_v40_apply, val_main_v36_apply, val_main_v35_apply, val_main_v34_apply, val_main_cst_6_apply, val_main_v39_apply, val_main_v38_apply, val_main_v37_apply, val_main_cst_7_apply,
    unit0, unit1, unit2, unit3]
  rfl
theorem r11 : val_main_v49 (F := Ideal) x5 (ix1 n) = rot (unitDiv (qrow x5 n)) 1 1 := by
  rw [val_main_v49_apply, val_main_v45_apply, val_main_v44_apply, val_main_cst_9_apply, val_main_v43_apply, val_main_v42_apply, val_main_v41_apply, val_main_cst_8_apply, val_main_v48_apply, val_main_v47_apply, val_main_v46_apply, val_main_cst_10_apply,
    unit1, unit3]
  rfl
theorem r12 : val_main_v56 (F := Ideal) x5 (ix1 n) = rot (unitDiv (qrow x5 n)) 1 2 := by
  rw [val_main_v56_apply, val_main_v52_apply, val_main_v51_apply, val_main_v50_apply, val_main_cst_11_apply, val_main_v55_apply, val_main_v54_apply, val_main_v53_apply, val_main_cst_12_apply,
    unit0, unit1, unit2, unit3]
  rfl
theorem r20 : val_main_v63 (F := Ideal) x5 (ix1 n) = rot (unitDiv (qrow x5 n)) 2 0 := by
  rw [val_main_v63_apply, val_main_v59_apply, val_main_v58_apply, val_main_v57_apply, val_main_cst_13_apply, val_main_v62_apply, val_main_v61_apply, val_main_v60_apply, val_main_cst_14_apply,
    unit0, unit1, unit2, unit3]
  rfl
theorem r21 : val_main_v70 (F := Ideal) x5 (ix1 n) = rot (unitDiv (qrow x5 n)) 2 1 := by
  rw [val_main_v70_apply, val_main_v66_apply, val_main_v65_apply, val_main_v64_apply, val_main_cst_15_apply, val_main_v69_apply, val_main_v68_apply, val_main_v67_apply, val_main_cst_16_apply,
    unit0, unit1, unit2, unit3]
  rfl
theorem r22 : val_main_v79 (F := Ideal) x5 (ix1 n) = rot (unitDiv (qrow x5 n)) 2 2 := by
  rw [val_main_v79_apply, val_main_v75_apply, val_main_v74_apply, val_main_cst_18_apply, val_main_v73_apply, val_main_v72_apply, val_main_v71_apply, val_main_cst_17_apply, val_main_v78_apply, val_main_v77_apply, val_main_v76_apply, val_main_cst_19_apply,
    unit1, unit2]
  rfl

end Cert.ReferenceIdeal.RefValue

end
-- ==== Proof.RefStack.lean ====
/-
  The reference stacks the nine entry vectors into an [N, 3, 3] array: three [N, 1] columns joined into each row of the
  rotation, the three rows (as [N, 1, 3] slabs) joined along the middle axis. Entry (n, i, k) of the stack is rotation
  entry (i, k) of splat n.
-/
import proofs.«157644_j47562467836190_2_alg».proof.Defs
import proofs.«157644_j47562467836190_2_alg».proof.Proof.Gen.ReferenceIdeal.Read
import proofs.«157644_j47562467836190_2_alg».proof.Proof.Spec
import proofs.«157644_j47562467836190_2_alg».proof.Proof.RefRot
import Idealize.ShloMosaic.Lib.Pipeline.Value
import Idealize.ShloMosaic.Lib.ValueIdx

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Cov

variable (x5 : S4000000x4.Idx → EReal) (n : Fin 4000000)

/-! ## The stacks -/

/-- Off the joined axis an index of a column and of the joined array have the same coordinates. -/
theorem colsHi (n : Fin 4000000) (k : Fin 3) : ∀ b' : Fin S4000000x1.rank,
    b'.cast (rfl : S4000000x1.rank = S4000000x3.rank) ≠ (1 : Fin S4000000x3.rank) →
      ((ix2 n (0 : Fin 1) : S4000000x1.Idx) b').val = ((ix2 n k : S4000000x3.Idx) (b'.cast rfl)).val := fun b' hb => by
  match b' with
  | ⟨0, _⟩ => rfl
  | ⟨1, _⟩ => exact absurd rfl hb

/-- Three [N, 1] columns joined along the second axis, at (n, k): column k at (n, 0). -/
theorem cols3_0 (a b c : S4000000x1.Idx → EReal) (h) (n : Fin 4000000) :
    concatenate S4000000x3 1 [⟨S4000000x1, a⟩, ⟨S4000000x1, b⟩, ⟨S4000000x1, c⟩] h (ix2 n 0) = a (ix2 n 0) :=
  concatenate_apply_piece 1 _ h _ 0 (by show 0 < 3; omega) S4000000x1 a rfl rfl 0 rfl (ix2 n 0) (colsHi n 0) rfl
theorem cols3_1 (a b c : S4000000x1.Idx → EReal) (h) (n : Fin 4000000) :
    concatenate S4000000x3 1 [⟨S4000000x1, a⟩, ⟨S4000000x1, b⟩, ⟨S4000000x1, c⟩] h (ix2 n 1) = b (ix2 n 0) :=
  concatenate_apply_piece 1 _ h _ 1 (by show 1 < 3; omega) S4000000x1 b rfl rfl 1 rfl (ix2 n 0) (colsHi n 1) rfl
theorem cols3_2 (a b c : S4000000x1.Idx → EReal) (h) (n : Fin 4000000) :
    concatenate S4000000x3 1 [⟨S4000000x1, a⟩, ⟨S4000000x1, b⟩, ⟨S4000000x1, c⟩] h (ix2 n 2) = c (ix2 n 0) :=
  concatenate_apply_piece 1 _ h _ 2 (by show 2 < 3; omega) S4000000x1 c rfl rfl 2 rfl (ix2 n 0) (colsHi n 2) rfl

/-- Off the joined axis an index of a slab and of the joined array have the same coordinates. -/
theorem slabsHi (n : Fin 4000000) (i k : Fin 3) : ∀ b' : Fin S4000000x1x3.rank,
    b'.cast (rfl : S4000000x1x3.rank = S4000000x3x3.rank) ≠ (1 : Fin S4000000x3x3.rank) →
      ((ix3 n (0 : Fin 1) k : S4000000x1x3.Idx) b').val = ((ix3 n i k : S4000000x3x3.Idx) (b'.cast rfl)).val := fun b' hb => by
  match b' with
  | ⟨0, _⟩ => rfl
  | ⟨1, _⟩ => exact absurd rfl hb
  | ⟨2, _⟩ => rfl

/-- Three [N, 1, 3] slabs joined along the middle axis, at (n, i, k): slab i at (n, 0, k). -/
theorem slabs3_0 (a b c : S4000000x1x3.Idx → EReal) (h) (n : Fin 4000000) (k : Fin 3) :
    concatenate S4000000x3x3 1 [⟨S4000000x1x3, a⟩, ⟨S4000000x1x3, b⟩, ⟨S4000000x1x3, c⟩] h (ix3 n 0 k) = a (ix3 n 0 k) :=
  concatenate_apply_piece 1 _ h _ 0 (by show 0 < 3; omega) S4000000x1x3 a rfl rfl 0 rfl (ix3 n 0 k) (slabsHi n 0 k) rfl
theorem slabs3_1 (a b c : S4000000x1x3.Idx → EReal) (h) (n : Fin 4000000) (k : Fin 3) :
    concatenate S4000000x3x3 1 [⟨S4000000x1x3, a⟩, ⟨S4000000x1x3, b⟩, ⟨S4000000x1x3, c⟩] h (ix3 n 1 k) = b (ix3 n 0 k) :=
  concatenate_apply_piece 1 _ h _ 1 (by show 1 < 3; omega) S4000000x1x3 b rfl rfl 1 rfl (ix3 n 0 k) (slabsHi n 1 k) rfl
theorem slabs3_2 (a b c : S4000000x1x3.Idx → EReal) (h) (n : Fin 4000000) (k : Fin 3) :
    concatenate S4000000x3x3 1 [⟨S4000000x1x3, a⟩, ⟨S4000000x1x3, b⟩, ⟨S4000000x1x3, c⟩] h (ix3 n 2 k) = c (ix3 n 0 k) :=
  concatenate_apply_piece 1 _ h _ 2 (by show 2 < 3; omega) S4000000x1x3 c rfl rfl 2 rfl (ix3 n 0 k) (slabsHi n 2 k) rfl

theorem rot_0_0 : val_main_v92 (F := Ideal) x5 (ix3 n 0 0) = rot (unitDiv (qrow x5 n)) 0 0 := by
  have e1 : idx_main_v92 (ix3 n (0 : Fin 1) (0 : Fin 3)) = ix2 n 0 := funext fun a => Fin.ext (by match a with | ⟨0, _⟩ => rfl | ⟨1, _⟩ => rfl)
  have e2 : idx_main_v80 (ix2 n (0 : Fin 1)) = ix1 n := funext fun a => Fin.ext (by match a with | ⟨0, _⟩ => rfl)
  rw [val_main_v92_apply, e1]
  delta val_main_v83
  rw [cols3_0, val_main_v80_apply, e2, r00]
theorem rot_0_1 : val_main_v92 (F := Ideal) x5 (ix3 n 0 1) = rot (unitDiv (qrow x5 n)) 0 1 := by
  have e1 : idx_main_v92 (ix3 n (0 : Fin 1) (1 : Fin 3)) = ix2 n 1 := funext fun a => Fin.ext (by match a with | ⟨0, _⟩ => rfl | ⟨1, _⟩ => rfl)
  have e2 : idx_main_v81 (ix2 n (0 : Fin 1)) = ix1 n := funext fun a => Fin.ext (by match a with | ⟨0, _⟩ => rfl)
  rw [val_main_v92_apply, e1]
  delta val_main_v83
  rw [cols3_1, val_main_v81_apply, e2, r01]
theorem rot_0_2 : val_main_v92 (F := Ideal) x5 (ix3 n 0 2) = rot (unitDiv (qrow x5 n)) 0 2 := by
  have e1 : idx_main_v92 (ix3 n (0 : Fin 1) (2 : Fin 3)) = ix2 n 2 := funext fun a => Fin.ext (by match a with | ⟨0, _⟩ => rfl | ⟨1, _⟩ => rfl)
  have e2 : idx_main_v82 (ix2 n (0 : Fin 1)) = ix1 n := funext fun a => Fin.ext (by match a with | ⟨0, _⟩ => rfl)
  rw [val_main_v92_apply, e1]
  delta val_main_v83
  rw [cols3_2, val_main_v82_apply, e2, r02]
theorem rot_1_0 : val_main_v93 (F := Ideal) x5 (ix3 n 0 0) = rot (unitDiv (qrow x5 n)) 1 0 := by
  have e1 : idx_main_v93 (ix3 n (0 : Fin 1) (0 : Fin 3)) = ix2 n 0 := funext fun a => Fin.ext (by match a with | ⟨0, _⟩ => rfl | ⟨1, _⟩ => rfl)
  have e2 : idx_main_v84 (ix2 n (0 : Fin 1)) = ix1 n := funext fun a => Fin.ext (by match a with | ⟨0, _⟩ => rfl)
  rw [val_main_v93_apply, e1]
  delta val_main_v87
  rw [cols3_0, val_main_v84_apply, e2, r10]
theorem rot_1_1 : val_main_v93 (F := Ideal) x5 (ix3 n 0 1) = rot (unitDiv (qrow x5 n)) 1 1 := by
  have e1 : idx_main_v93 (ix3 n (0 : Fin 1) (1 : Fin 3)) = ix2 n 1 := funext fun a => Fin.ext (by match a with | ⟨0, _⟩ => rfl | ⟨1, _⟩ => rfl)
  have e2 : idx_main_v85 (ix2 n (0 : Fin 1)) = ix1 n := funext fun a => Fin.ext (by match a with | ⟨0, _⟩ => rfl)
  rw [val_main_v93_apply, e1]
  delta val_main_v87
  rw [cols3_1, val_main_v85_apply, e2, r11]
theorem rot_1_2 : val_main_v93 (F := Ideal) x5 (ix3 n 0 2) = rot (unitDiv (qrow x5 n)) 1 2 := by
  have e1 : idx_main_v93 (ix3 n (0 : Fin 1) (2 : Fin 3)) = ix2 n 2 := funext fun a => Fin.ext (by match a with | ⟨0, _⟩ => rfl | ⟨1, _⟩ => rfl)
  have e2 : idx_main_v86 (ix2 n (0 : Fin 1)) = ix1 n := funext fun a => Fin.ext (by match a with | ⟨0, _⟩ => rfl)
  rw [val_main_v93_apply, e1]
  delta val_main_v87
  rw [cols3_2, val_main_v86_apply, e2, r12]
theorem rot_2_0 : val_main_v94 (F := Ideal) x5 (ix3 n 0 0) = rot (unitDiv (qrow x5 n)) 2 0 := by
  have e1 : idx_main_v94 (ix3 n (0 : Fin 1) (0 : Fin 3)) = ix2 n 0 := funext fun a => Fin.ext (by match a with | ⟨0, _⟩ => rfl | ⟨1, _⟩ => rfl)
  have e2 : idx_main_v88 (ix2 n (0 : Fin 1)) = ix1 n := funext fun a => Fin.ext (by match a with | ⟨0, _⟩ => rfl)
  rw [val_main_v94_apply, e1]
  delta val_main_v91
  rw [cols3_0, val_main_v88_apply, e2, r20]
theorem rot_2_1 : val_main_v94 (F := Ideal) x5 (ix3 n 0 1) = rot (unitDiv (qrow x5 n)) 2 1 := by
  have e1 : idx_main_v94 (ix3 n (0 : Fin 1) (1 : Fin 3)) = ix2 n 1 := funext fun a => Fin.ext (by match a with | ⟨0, _⟩ => rfl | ⟨1, _⟩ => rfl)
  have e2 : idx_main_v89 (ix2 n (0 : Fin 1)) = ix1 n := funext fun a => Fin.ext (by match a with | ⟨0, _⟩ => rfl)
  rw [val_main_v94_apply, e1]
  delta val_main_v91
  rw [cols3_1, val_main_v89_apply, e2, r21]
theorem rot_2_2 : val_main_v94 (F := Ideal) x5 (ix3 n 0 2) = rot (unitDiv (qrow x5 n)) 2 2 := by
  have e1 : idx_main_v94 (ix3 n (0 : Fin 1) (2 : Fin 3)) = ix2 n 2 := funext fun a => Fin.ext (by match a with | ⟨0, _⟩ => rfl | ⟨1, _⟩ => rfl)
  have e2 : idx_main_v90 (ix2 n (0 : Fin 1)) = ix1 n := funext fun a => Fin.ext (by match a with | ⟨0, _⟩ => rfl)
  rw [val_main_v94_apply, e1]
  delta val_main_v91
  rw [cols3_2, val_main_v90_apply, e2, r22]

/-- The stacked rotation at (n, i, k). -/
theorem stack (i k : Fin 3) : val_main_v95 (F := Ideal) x5 (ix3 n i k) = rot (unitDiv (qrow x5 n)) i k := by
  delta val_main_v95
  match i, k with
  | ⟨0, _⟩, ⟨0, _⟩ => exact (slabs3_0 _ _ _ _ n 0).trans (rot_0_0 x5 n)
  | ⟨0, _⟩, ⟨1, _⟩ => exact (slabs3_0 _ _ _ _ n 1).trans (rot_0_1 x5 n)
  | ⟨0, _⟩, ⟨2, _⟩ => exact (slabs3_0 _ _ _ _ n 2).trans (rot_0_2 x5 n)
  | ⟨1, _⟩, ⟨0, _⟩ => exact (slabs3_1 _ _ _ _ n 0).trans (rot_1_0 x5 n)
  | ⟨1, _⟩, ⟨1, _⟩ => exact (slabs3_1 _ _ _ _ n 1).trans (rot_1_1 x5 n)
  | ⟨1, _⟩, ⟨2, _⟩ => exact (slabs3_1 _ _ _ _ n 2).trans (rot_1_2 x5 n)
  | ⟨2, _⟩, ⟨0, _⟩ => exact (slabs3_2 _ _ _ _ n 0).trans (rot_2_0 x5 n)
  | ⟨2, _⟩, ⟨1, _⟩ => exact (slabs3_2 _ _ _ _ n 1).trans (rot_2_1 x5 n)
  | ⟨2, _⟩, ⟨2, _⟩ => exact (slabs3_2 _ _ _ _ n 2).trans (rot_2_2 x5 n)

end Cert.ReferenceIdeal.RefValue

end
-- ==== Proof.RefSide.lean ====
/-
  The reference's result, read at an index: the stacked rotation is scaled column by column with the splat's scales and
  contracted with itself over the last axis, so entry (n, i, j) is entry (i, j) of M · Mᵀ for the scaled rotation M of
  splat n — the covariance array, once every quaternion has a positive squared length.
-/
import proofs.«157644_j47562467836190_2_alg».proof.Defs
import proofs.«157644_j47562467836190_2_alg».proof.Proof.Gen.ReferenceIdeal.Read
import proofs.«157644_j47562467836190_2_alg».proof.Proof.Spec
import proofs.«157644_j47562467836190_2_alg».proof.Proof.RefStack
import Idealize.ShloMosaic.Lib.Pipeline.Value
import Idealize.ShloMosaic.Lib.ValueIdx

set_option maxRecDepth 16384

noncomputable section

namespace Cert.ReferenceIdeal.RefValue

open Idealize.ShloMosaic Idealize.ShloMosaic.ValueIdx Cert.ReferenceIdeal Cert.ReferenceIdeal.Gen Cert.ReferenceIdeal.Read Cert.Cov

variable (x4 : S4000000x3.Idx → EReal) (x5 : S4000000x4.Idx → EReal) (n : Fin 4000000)

/-! ## Scaling and the contraction -/

/-- The scaled rotation at (n, i, k): column k times the splat's k-th scale. -/
theorem scaled_entry (i k : Fin 3) :
    val_main_v98 (F := Ideal) x4 x5 (ix3 n i k) = scaled (unitDiv (qrow x5 n)) (srow x4 n) i k := by
  have e : idx_main_v96 (idx_main_v97 (ix3 n i k)) = ix2 n k :=
    funext fun a => Fin.ext (by match a with | ⟨0, _⟩ => rfl | ⟨1, _⟩ => rfl)
  rw [val_main_v98_apply, stack, val_main_v97_apply, val_main_v96_apply, e]
  rfl

/-- The contraction over the last axis: entry (n, i, j) is entry (i, j) of M · Mᵀ. -/
theorem ref_entry (i j : Fin 3) :
    val_main_v99 (F := Ideal) x4 x5 (ix3 n i j) = gram (scaled (unitDiv (qrow x5 n)) (srow x4 n)) i j := by
  have el : ∀ k : Fin 3, lidx_main_v99 (ix3 n i j) k = ix3 n i k := fun k =>
    funext fun a => Fin.ext (by match a with | ⟨0, _⟩ => rfl | ⟨1, _⟩ => rfl | ⟨2, _⟩ => rfl)
  have er : ∀ k : Fin 3, ridx_main_v99 (ix3 n i j) k = ix3 n j k := fun k =>
    funext fun a => Fin.ext (by match a with | ⟨0, _⟩ => rfl | ⟨1, _⟩ => rfl | ⟨2, _⟩ => rfl)
  rw [val_main_v99_apply]
  refine (Finset.sum_congr rfl fun k _ => ?_).trans (sum_eq_gram (scaled (unitDiv (qrow x5 n)) (srow x4 n)) i j)
  rw [el k, er k, scaled_entry, scaled_entry]

/-- The reference's result is the covariance array, when every quaternion has a positive squared length. -/
theorem ref_eq (hpos : ∀ n : Fin 4000000, 0 < sumsq (qrow x5 n)) :
    val_main_v99 (F := Ideal) x4 x5 = covArr x5 x4 := by
  funext i
  obtain ⟨n, a, b, rfl⟩ : ∃ (n : Fin 4000000) (a b : Fin 3), i = ix3 n a b := ⟨i 0, i 1, i 2, eq_ix3 i⟩
  rw [ref_entry]
  exact gram_unitDiv_eq_cov (qrow x5 n) (srow x4 n) (hpos n) a b

end Cert.ReferenceIdeal.RefValue

end
-- ==== Proof.PreFacts.lean ====
/-
  What the precondition says about a quaternion: its last conjunct is "for every splat n, the sum over the row of the
  squares of the quaternion's components is positive". Read at the extended reals, that is positivity of the squared
  length of row n — the one fact under which scaling by the reciprocal square root and dividing by the square root agree.
-/
import proofs.«157644_j47562467836190_2_alg».proof.Defs
import proofs.«157644_j47562467836190_2_alg».proof.Proof.Gen.Pre_finite_inputs
import proofs.«157644_j47562467836190_2_alg».proof.Proof.Spec
import Idealize.ShloMosaic.Lib.ReduceAll
import Idealize.ShloMosaic.Lib.Affine
import Idealize.ShloMosaic.Lib.WordArith
import Idealize.ShloMosaic.Lib.IdealHost
import Idealize.ShloMosaic.Lib.ValueIdx
import Idealize.ShloMosaic.PureOps.Ideal.Laws

noncomputable section

namespace Cert.PreFacts

open Idealize.ShloMosaic Idealize.ShloMosaic.ValueIdx Cert.Pre_finite_inputs Cert.Cov

instance : Subsingleton S_.Idx := ⟨fun a b => funext fun d => d.elim0⟩

/-- The host's sum over the second axis of an [N, 4] array, at row n: the initial value plus the sum over the row. -/
theorem rowSum (y : FVec Ideal S4000000x4 .f32) (init : S_.Idx → EReal) (h : S4000000x4.ReducesTo [1] S4000000)
    (hu : 0 < S_.numel) (n : Fin 4000000) :
    Host.reduceAdd y init h hu (ix1 n) = init (Shape.Idx.first hu) + ∑ k : Fin 4, y (ix2 n k) := by
  simp only [Host.reduceAdd, Ideal.hostReduceAdd_def]
  rw [Ideal.hostReduceAdd_single h (by decide)]
  refine congrArg (_ + ·) (Finset.sum_congr rfl fun k _ => ?_)
  exact congrArg y (funext fun a => Fin.ext (by match a with | ⟨0, _⟩ => rfl | ⟨1, _⟩ => rfl))

/-- A one-bit word made from a Boolean is one only for `true`. -/
theorem ofBool_one {b : Bool} (h : BitVec.ofBool b = 1#1) : b = true := by revert h; cases b <;> decide

variable [Cert.Pre_finite_inputs.Facts]

/-- Under the precondition every quaternion (row of the sixth argument) has a positive squared length. -/
theorem sumsq_pos (a0 a1 a2 a3 a4 : FVec Ideal S4000000x3 .f32) (a5 : FVec Ideal S4000000x4 .f32)
    (a6 : FVec Ideal S4000000x3 .f32) (a7 : FVec Ideal S4000000 .f32)
    (h : fn (F := Ideal) a0 a1 a2 a3 a4 a5 a6 a7 = fun _ => 1#1) (n : Fin 4000000) :
    0 < sumsq (fun k => a5 (ix2 n k)) := by
  have h0 := congrFun h ix0
  dsimp only [fn, fn_part1, fn_part2] at h0
  have h1 := (IntOp.andi_eq_one.1 h0).2
  have h2 := Host.reduce_andi_all _ _ _ _ _ h1 (ix1 n)
  rw [cmpf_apply, Ideal.cmpf_def, rowSum, broadcastInDim_scalar_apply] at h2
  have h3 : (constant (F := Ideal) S_ .f32 0x00000000#32) ix0
      < (constant (F := Ideal) S_ .f32 0x00000000#32) (Shape.Idx.first Facts.h_S_) + ∑ k : Fin 4, mulf a5 a5 (ix2 n k) :=
    of_decide_eq_true (ofBool_one h2)
  have e : (constant (F := Ideal) S_ .f32 0x00000000#32) (Shape.Idx.first Facts.h_S_) + ∑ k : Fin 4, mulf a5 a5 (ix2 n k)
      = sumsq (fun k => a5 (ix2 n k)) := zero_add_sum_eq_sumsq (fun k => a5 (ix2 n k))
  rw [e] at h3
  have z : (constant (F := Ideal) S_ .f32 0x00000000#32) ix0 = 0 := Ideal.ofBits_zero_f32
  rw [z] at h3
  exact h3

end Cert.PreFacts

end
-- ==== Proof.lean ====
/-
  The covariance of four million splats: each splat has a quaternion and three scales; its covariance is M · Mᵀ for
  M = R(u) · diag(s), with R(u) the rotation matrix of the quaternion scaled to unit length.

  The kernel works on the transposed, zero-padded inputs, one block of columns per grid point, and scales a quaternion
  by the reciprocal square root of its squared length; the reference divides it by the square root of the squared
  length and contracts the stacked, scaled rotation with itself. On the extended reals every other operation is the
  same on both sides, entry by entry (the products commute, so the entries below the diagonal that the kernel copies
  from above it agree too), and multiplying by 1/√S is dividing by √S for every positive S. At a zero quaternion the
  two differ (0 · ∞ = 0 against 0 / 0), so the claim is made for quaternions of positive squared length: the
  precondition's last conjunct, the only one the value proof uses.

  The frames are the generated ones (the reference's is its generated run with the results dropped); the idealization
  rewrote nothing, so that conjunct is trivial.
-/
import proofs.«157644_j47562467836190_2_alg».proof.Defs
import proofs.«157644_j47562467836190_2_alg».proof.Proof.Gen.Kernel
import proofs.«157644_j47562467836190_2_alg».proof.Proof.Gen.Kernel.Frame
import proofs.«157644_j47562467836190_2_alg».proof.Proof.Gen.KernelIdeal
import proofs.«157644_j47562467836190_2_alg».proof.Proof.Gen.KernelIdeal.Frame
import proofs.«157644_j47562467836190_2_alg».proof.Proof.Gen.ReferenceIdeal
import proofs.«157644_j47562467836190_2_alg».proof.Proof.Gen.ReferenceIdeal.Run
import proofs.«157644_j47562467836190_2_alg».proof.Proof.Gen.ReferenceIdeal.Read
import proofs.«157644_j47562467836190_2_alg».proof.Proof.Gen.Pre_finite_inputs
import proofs.«157644_j47562467836190_2_alg».proof.Proof.KernelRun
import proofs.«157644_j47562467836190_2_alg».proof.Proof.RefSide
import proofs.«157644_j47562467836190_2_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both programs end with the covariance array of the quaternion and scale arguments as their third result (the
    kernel's by its run read through the padding and the blocks, the reference's by its run read at an index and the
    positivity of every squared length), and return three arguments unchanged as the others. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg3),
    fun c => m ((c.tc : Thread Cert.KernelIdeal.nD Cert.KernelIdeal.τ).loc Cert.KernelIdeal.main_arg6),
    fun c => Cert.Cov.covArr (m ((c.tc : Thread Cert.KernelIdeal.nD Cert.KernelIdeal.τ).loc Cert.KernelIdeal.main_arg5))
      (m ((c.tc : Thread Cert.KernelIdeal.nD Cert.KernelIdeal.τ).loc Cert.KernelIdeal.main_arg4)),
    fun c => m ((c.tc : Thread Cert.KernelIdeal.nD Cert.KernelIdeal.τ).loc Cert.KernelIdeal.main_arg7),
    Cert.KernelIdeal.Run.run m ρ, ?_⟩
  refine (θ_run Cert.ReferenceIdeal.defs _ _).mono (fun r h c => ?_) (Cert.ReferenceIdeal.Value.run (F := Ideal) m' ρ')
  obtain ⟨h3, h6, hv, h7, k0, k1, k2, k3, k4, k5, k6, k7⟩ := h c
  obtain ⟨g0, g1, g2, g3, g4, g5, g6, g7⟩ := hagree c
  refine ⟨h3.trans g3, h6.trans g6, ?_, h7.trans g7, k0, k1, k2, k3, k4, k5, k6, k7⟩
  rw [hv, Cert.ReferenceIdeal.Read.val_main_v99_eq, g4, g5]
  exact Cert.ReferenceIdeal.RefValue.ref_eq _ _ (fun n => Cert.PreFacts.sumsq_pos _ _ _ _ _ _ _ _ (hpre c) n)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
